-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x5x3x84x84 : Shape := ⟨5, ![32, 5, 3, 84, 84]⟩
abbrev S32x15x3x84x84 : Shape := ⟨5, ![32, 15, 3, 84, 84]⟩
abbrev S21168x1600 : Shape := ⟨2, ![21168, 1600]⟩
abbrev S_ : Shape := ⟨0, ![]⟩

class Facts : Prop where
  bcast_S_S32x5x3x84x84 : S_.BroadcastsInDim S32x5x3x84x84 (![] : Fin 0 → Fin S32x5x3x84x84.rank)
  reducesTo_S32x5x3x84x84_S_d0_1_2_3_4 : S32x5x3x84x84.ReducesTo [0, 1, 2, 3, 4] S_
  h_S_ : 0 < S_.numel
  bcast_S_S32x15x3x84x84 : S_.BroadcastsInDim S32x15x3x84x84 (![] : Fin 0 → Fin S32x15x3x84x84.rank)
  reducesTo_S32x15x3x84x84_S_d0_1_2_3_4 : S32x15x3x84x84.ReducesTo [0, 1, 2, 3, 4] S_
  bcast_S_S21168x1600 : S_.BroadcastsInDim S21168x1600 (![] : Fin 0 → Fin S21168x1600.rank)
  reducesTo_S21168x1600_S_d0_1 : S21168x1600.ReducesTo [0, 1] S_

variable [Facts]

def fn {F : FTy → Type} [FloatOps F] (main_arg0 : FVec F S32x5x3x84x84 .f32) (main_arg1 : FVec F S32x15x3x84x84 .f32) (main_arg2 : FVec F S21168x1600 .f32) : IVec S_ 1 :=
  let main_v0 : FVec F S32x5x3x84x84 .f32 := Host.absf main_arg0
  let main_cst : FVec F S_ .f32 := constant S_ .f32 0x7F800000#32
  let main_v1 : FVec F S32x5x3x84x84 .f32 := broadcastInDim S32x5x3x84x84 ![] bcast_S_S32x5x3x84x84 main_cst
  let main_v2 : IVec S32x5x3x84x84 1 := cmpf .olt main_v0 main_v1
  let main_c : IVec S_ 1 := constantI S_ 1 1#1
  let main_v3 : IVec S_ 1 := (fun x v => Host.reduce IntOp.andi x v reducesTo_S32x5x3x84x84_S_d0_1_2_3_4 h_S_) main_v2 main_c
  let main_v4 : FVec F S32x15x3x84x84 .f32 := Host.absf main_arg1
  let main_cst_0 : FVec F S_ .f32 := constant S_ .f32 0x7F800000#32
  let main_v5 : FVec F S32x15x3x84x84 .f32 := broadcastInDim S32x15x3x84x84 ![] bcast_S_S32x15x3x84x84 main_cst_0
  let main_v6 : IVec S32x15x3x84x84 1 := cmpf .olt main_v4 main_v5
  let main_c_1 : IVec S_ 1 := constantI S_ 1 1#1
  let main_v7 : IVec S_ 1 := (fun x v => Host.reduce IntOp.andi x v reducesTo_S32x15x3x84x84_S_d0_1_2_3_4 h_S_) main_v6 main_c_1
  let main_v8 : IVec S_ 1 := andi main_v3 main_v7
  let main_v9 : FVec F S21168x1600 .f32 := Host.absf main_arg2
  let main_cst_2 : FVec F S_ .f32 := constant S_ .f32 0x7F800000#32
  let main_v10 : FVec F S21168x1600 .f32 := broadcastInDim S21168x1600 ![] bcast_S_S21168x1600 main_cst_2
  let main_v11 : IVec S21168x1600 1 := cmpf .olt main_v9 main_v10
  let main_c_3 : IVec S_ 1 := constantI S_ 1 1#1
  let main_v12 : IVec S_ 1 := (fun x v => Host.reduce IntOp.andi x v reducesTo_S21168x1600_S_d0_1 h_S_) main_v11 main_c_3
  let main_v13 : IVec S_ 1 := andi main_v8 main_v12
  main_v13
-- ==== Kernel.lean ====
abbrev S32x5x3x84x84 : Shape := ⟨5, ![32, 5, 3, 84, 84]⟩
abbrev S32x15x3x84x84 : Shape := ⟨5, ![32, 15, 3, 84, 84]⟩
abbrev S21168x1600 : Shape := ⟨2, ![21168, 1600]⟩
abbrev S160x21168 : Shape := ⟨2, ![160, 21168]⟩
abbrev S480x21168 : Shape := ⟨2, ![480, 21168]⟩
abbrev S160x1536 : Shape := ⟨2, ![160, 1536]⟩
abbrev S480x1536 : Shape := ⟨2, ![480, 1536]⟩
abbrev S160x1408 : Shape := ⟨2, ![160, 1408]⟩
abbrev S480x1408 : Shape := ⟨2, ![480, 1408]⟩
abbrev S1408x768 : Shape := ⟨2, ![1408, 768]⟩
abbrev S160x768 : Shape := ⟨2, ![160, 768]⟩
abbrev S480x768 : Shape := ⟨2, ![480, 768]⟩
abbrev S48x1536 : Shape := ⟨2, ![48, 1536]⟩
abbrev S160x48 : Shape := ⟨2, ![160, 48]⟩
abbrev S480x48 : Shape := ⟨2, ![480, 48]⟩
abbrev S21168x64 : Shape := ⟨2, ![21168, 64]⟩
abbrev S160x64 : Shape := ⟨2, ![160, 64]⟩
abbrev S480x64 : Shape := ⟨2, ![480, 64]⟩
abbrev S160x1600 : Shape := ⟨2, ![160, 1600]⟩
abbrev S480x1600 : Shape := ⟨2, ![480, 1600]⟩
abbrev S32x5x1600 : Shape := ⟨3, ![32, 5, 1600]⟩
abbrev S_ : Shape := ⟨0, ![]⟩
abbrev S32x1600 : Shape := ⟨2, ![32, 1600]⟩
abbrev S480 : Shape := ⟨1, ![480]⟩
abbrev S480x1 : Shape := ⟨2, ![480, 1]⟩
abbrev S32 : Shape := ⟨1, ![32]⟩
abbrev S32x1 : Shape := ⟨2, ![32, 1]⟩
abbrev S1600x32 : Shape := ⟨2, ![1600, 32]⟩
abbrev S480x32 : Shape := ⟨2, ![480, 32]⟩

abbrev nBuf : Space → Nat
  | .hbm => 62
  | .vmem => 12
  | .smem => 0
  | _ => 0

abbrev bufTy : (tb : Table) → Fin (tcTables nBuf tb) → BufTy
  | .hbm, ⟨0, _⟩ => ⟨S32x5x3x84x84, .f32⟩
  | .hbm, ⟨1, _⟩ => ⟨S32x15x3x84x84, .f32⟩
  | .hbm, ⟨2, _⟩ => ⟨S21168x1600, .f32⟩
  | .hbm, ⟨3, _⟩ => ⟨S160x21168, .f32⟩
  | .hbm, ⟨4, _⟩ => ⟨S480x21168, .f32⟩
  | .hbm, ⟨5, _⟩ => ⟨S160x1536, .f32⟩
  | .hbm, ⟨6, _⟩ => ⟨S480x1536, .f32⟩
  | .hbm, ⟨7, _⟩ => ⟨S48x1536, .f32⟩
  | .hbm, ⟨8, _⟩ => ⟨S160x48, .f32⟩
  | .hbm, ⟨9, _⟩ => ⟨S160x1536, .f32⟩
  | .hbm, ⟨10, _⟩ => ⟨S160x1536, .f32⟩
  | .hbm, ⟨11, _⟩ => ⟨S480x48, .f32⟩
  | .hbm, ⟨12, _⟩ => ⟨S480x1536, .f32⟩
  | .hbm, ⟨13, _⟩ => ⟨S480x1536, .f32⟩
  | .hbm, ⟨14, _⟩ => ⟨S21168x64, .f32⟩
  | .hbm, ⟨15, _⟩ => ⟨S160x64, .f32⟩
  | .hbm, ⟨16, _⟩ => ⟨S480x64, .f32⟩
  | .hbm, ⟨17, _⟩ => ⟨S160x1600, .f32⟩
  | .hbm, ⟨18, _⟩ => ⟨S480x1600, .f32⟩
  | .hbm, ⟨19, _⟩ => ⟨S32x5x1600, .f32⟩
  | .hbm, ⟨20, _⟩ => ⟨S_, .f32⟩
  | .hbm, ⟨21, _⟩ => ⟨S32x1600, .f32⟩
  | .hbm, ⟨22, _⟩ => ⟨S_, .f32⟩
  | .hbm, ⟨23, _⟩ => ⟨S32x1600, .f32⟩
  | .hbm, ⟨24, _⟩ => ⟨S32x1600, .f32⟩
  | .hbm, ⟨25, _⟩ => ⟨S480x1600, .f32⟩
  | .hbm, ⟨26, _⟩ => ⟨S_, .f32⟩
  | .hbm, ⟨27, _⟩ => ⟨S480, .f32⟩
  | .hbm, ⟨28, _⟩ => ⟨S480x1, .f32⟩
  | .hbm, ⟨29, _⟩ => ⟨S480x1, .f32⟩
  | .hbm, ⟨30, _⟩ => ⟨S_, .f32⟩
  | .hbm, ⟨31, _⟩ => ⟨S480x1, .f32⟩
  | .hbm, ⟨32, _⟩ => ⟨S480x1, .f32⟩
  | .hbm, ⟨33, _⟩ => ⟨S480x1600, .f32⟩
  | .hbm, ⟨34, _⟩ => ⟨S480x1600, .f32⟩
  | .hbm, ⟨35, _⟩ => ⟨S32x1600, .f32⟩
  | .hbm, ⟨36, _⟩ => ⟨S_, .f32⟩
  | .hbm, ⟨37, _⟩ => ⟨S32, .f32⟩
  | .hbm, ⟨38, _⟩ => ⟨S32x1, .f32⟩
  | .hbm, ⟨39, _⟩ => ⟨S32x1, .f32⟩
  | .hbm, ⟨40, _⟩ => ⟨S_, .f32⟩
  | .hbm, ⟨41, _⟩ => ⟨S32x1, .f32⟩
  | .hbm, ⟨42, _⟩ => ⟨S32x1, .f32⟩
  | .hbm, ⟨43, _⟩ => ⟨S32x1600, .f32⟩
  | .hbm, ⟨44, _⟩ => ⟨S32x1600, .f32⟩
  | .hbm, ⟨45, _⟩ => ⟨S1600x32, .f32⟩
  | .hbm, ⟨46, _⟩ => ⟨S480x32, .f32⟩
  | .hbm, ⟨47, _⟩ => ⟨S_, .f32⟩
  | .hbm, ⟨48, _⟩ => ⟨S480, .f32⟩
  | .hbm, ⟨49, _⟩ => ⟨S_, .f32⟩
  | .hbm, ⟨50, _⟩ => ⟨S480, .f32⟩
  | .hbm, ⟨51, _⟩ => ⟨S480, .f32⟩
  | .hbm, ⟨52, _⟩ => ⟨S480x1, .f32⟩
  | .hbm, ⟨53, _⟩ => ⟨S480x32, .f32⟩
  | .hbm, ⟨54, _⟩ => ⟨S480x32, .f32⟩
  | .hbm, ⟨55, _⟩ => ⟨S480x32, .f32⟩
  | .hbm, ⟨56, _⟩ => ⟨S_, .f32⟩
  | .hbm, ⟨57, _⟩ => ⟨S480, .f32⟩
  | .hbm, ⟨58, _⟩ => ⟨S480x1, .f32⟩
  | .hbm, ⟨59, _⟩ => ⟨S480x1, .f32⟩
  | .hbm, ⟨60, _⟩ => ⟨S480x32, .f32⟩
  | .hbm, ⟨61, _⟩ => ⟨S480x32, .f32⟩
  | .local _ .vmem, ⟨0, _⟩ => ⟨S160x1408, .f32⟩
  | .local _ .vmem, ⟨1, _⟩ => ⟨S160x1408, .f32⟩
  | .local _ .vmem, ⟨2, _⟩ => ⟨S480x1408, .f32⟩
  | .local _ .vmem, ⟨3, _⟩ => ⟨S480x1408, .f32⟩
  | .local _ .vmem, ⟨4, _⟩ => ⟨S1408x768, .f32⟩
  | .local _ .vmem, ⟨5, _⟩ => ⟨S1408x768, .f32⟩
  | .local _ .vmem, ⟨6, _⟩ => ⟨S160x768, .f32⟩
  | .local _ .vmem, ⟨7, _⟩ => ⟨S160x768, .f32⟩
  | .local _ .vmem, ⟨8, _⟩ => ⟨S480x768, .f32⟩
  | .local _ .vmem, ⟨9, _⟩ => ⟨S480x768, .f32⟩
  | .local _ .vmem, ⟨10, _⟩ => ⟨S160x768, .f32⟩
  | .local _ .vmem, ⟨11, _⟩ => ⟨S480x768, .f32⟩
  | _, _ => ⟨S32x5x3x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call2_cst : Ref sig .tc := ⟨.hbm, 47, rfl⟩
abbrev main_call2_v0 : Ref sig .tc := ⟨.hbm, 48, rfl⟩
abbrev main_call2_cst_0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_cst_1 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_v31 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 15], ![false, false]⟩

def k0_cond2 (i : grid0.Coords) : BitVec 1 :=
  let arg1 : BitVec 32 := BitVec.ofNat 32 (i 1).val
  let c14_i32 : BitVec 32 := 14#32
  let v20 : BitVec 1 := Scalar.cmpi .eq arg1 c14_i32
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S160x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S480x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S160x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S480x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x5x3x84x84_S160x21168 : S32x5x3x84x84.ShapeCasts S160x21168
  shapeCasts_S32x15x3x84x84_S480x21168 : S32x15x3x84x84.ShapeCasts S480x21168
  inb_S160x768_S160x768_0_0 : ∀ a, (![0, 0] : Fin 2 → Nat) a + S160x768.size a ≤ S160x768.size a
  h_S160x768 : 0 < S160x768.numel
  shapeCasts_S160x768_S160x768 : S160x768.ShapeCasts S160x768
  inb_S480x768_S480x768_0_0 : ∀ a, (![0, 0] : Fin 2 → Nat) a + S480x768.size a ≤ S480x768.size a
  h_S480x768 : 0 < S480x768.numel
  shapeCasts_S480x768_S480x768 : S480x768.ShapeCasts S480x768
  inb_S1408x768_S1408x768_0_0 : ∀ a, (![0, 0] : Fin 2 → Nat) a + S1408x768.size a ≤ S1408x768.size a
  h_S1408x768 : 0 < S1408x768.numel
  inb_S160x1408_S160x1408_0_0 : ∀ a, (![0, 0] : Fin 2 → Nat) a + S160x1408.size a ≤ S160x1408.size a
  h_S160x1408 : 0 < S160x1408.numel
  shapeCasts_S160x1408_S160x1408 : S160x1408.ShapeCasts S160x1408
  inb_S480x1408_S480x1408_0_0 : ∀ a, (![0, 0] : Fin 2 → Nat) a + S480x1408.size a ≤ S480x1408.size a
  h_S480x1408 : 0 < S480x1408.numel
  shapeCasts_S480x1408_S480x1408 : S480x1408.ShapeCasts S480x1408
  slices_S21168x1600_S48x1536_21120_0 : S21168x1600.Slices ![21120, 0] S48x1536
  slices_S160x21168_S160x48_0_21120 : S160x21168.Slices ![0, 21120] S160x48
  slices_S480x21168_S480x48_0_21120 : S480x21168.Slices ![0, 21120] S480x48
  slices_S21168x1600_S21168x64_0_1536 : S21168x1600.Slices ![0, 1536] S21168x64
  concatenates_S160x1536_S160x64_S160x1600_d1 : Shape.Concatenates [S160x1536, S160x64] S160x1600 1
  concatenates_S480x1536_S480x64_S480x1600_d1 : Shape.Concatenates [S480x1536, S480x64] S480x1600 1
  shapeCasts_S160x1600_S32x5x1600 : S160x1600.ShapeCasts S32x5x1600
  reducesTo_S32x5x1600_S32x1600_d1 : S32x5x1600.ReducesTo [1] S32x1600
  h_S_ : 0 < S_.numel
  bcast_S_S32x1600 : S_.BroadcastsInDim S32x1600 (![] : Fin 0 → Fin S32x1600.rank)
  reducesTo_S480x1600_S480_d1 : S480x1600.ReducesTo [1] S480
  bcast_S480_S480x1_0 : S480.BroadcastsInDim S480x1 (![0] : Fin 1 → Fin S480x1.rank)
  bcast_S_S480x1 : S_.BroadcastsInDim S480x1 (![] : Fin 0 → Fin S480x1.rank)
  bcast_S480x1_S480x1600_0_1 : S480x1.BroadcastsInDim S480x1600 (![0, 1] : Fin 2 → Fin S480x1600.rank)
  reducesTo_S32x1600_S32_d1 : S32x1600.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1600_0_1 : S32x1.BroadcastsInDim S32x1600 (![0, 1] : Fin 2 → Fin S32x1600.rank)
  transposes_S32x1600_S1600x32_1_0 : S32x1600.Transposes [1, 0] S1600x32
  reducesTo_S480x32_S480_d1 : S480x32.ReducesTo [1] S480
  bcast_S_S480 : S_.BroadcastsInDim S480 (![] : Fin 0 → Fin S480.rank)
  bcast_S480x1_S480x32_0_1 : S480x1.BroadcastsInDim S480x32 (![0, 1] : Fin 2 → Fin S480x32.rank)
  dot_S160x1408_S1408x768_S160x768_1_0_0_1_n_n_wf : DotDims.WF S160x1408 S1408x768 S160x768 [1] [0] [0] [1] [] []
  dot_S480x1408_S1408x768_S480x768_1_0_0_1_n_n_wf : DotDims.WF S480x1408 S1408x768 S480x768 [1] [0] [0] [1] [] []
  dot_S160x48_S48x1536_S160x1536_1_0_0_1_n_n_wf : DotDims.WF S160x48 S48x1536 S160x1536 [1] [0] [0] [1] [] []
  dot_S480x48_S48x1536_S480x1536_1_0_0_1_n_n_wf : DotDims.WF S480x48 S48x1536 S480x1536 [1] [0] [0] [1] [] []
  dot_S160x21168_S21168x64_S160x64_1_0_0_1_n_n_wf : DotDims.WF S160x21168 S21168x64 S160x64 [1] [0] [0] [1] [] []
  dot_S480x21168_S21168x64_S480x64_1_0_0_1_n_n_wf : DotDims.WF S480x21168 S21168x64 S480x64 [1] [0] [0] [1] [] []
  dot_S480x1600_S1600x32_S480x32_1_0_0_1_n_n_wf : DotDims.WF S480x1600 S1600x32 S480x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S160x1408.size a < S160x21168.size a
  hwx0_0 : ∀ i : grid0.Coords, EltTy.bits .f32 = 32 ∨ (Rect.unit (s := S160x21168) (fun a => cc0_transform_0 i a * S160x1408.size a) (fun a => (Pipeline.Clip.of (cc0_transform_0 i a) (S160x1408.size a) (S160x21168.size a)).extent (S160x1408.size a)) fun a => Pipeline.Clip.inb (Pipeline.Clip.ok_of (hstart0_0 i a))).WholeWords (EltTy.packing .f32)
  hwxs0_0 : ∀ i : grid0.Coords, EltTy.bits .f32 = 32 ∨ (Rect.unit (s := S160x1408) (fun _ => 0) (fun a => (Pipeline.Clip.of (cc0_transform_0 i a) (S160x1408.size a) (S160x21168.size a)).extent (S160x1408.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S480x1408.size a < S480x21168.size a
  hwx0_1 : ∀ i : grid0.Coords, EltTy.bits .f32 = 32 ∨ (Rect.unit (s := S480x21168) (fun a => cc0_transform_1 i a * S480x1408.size a) (fun a => (Pipeline.Clip.of (cc0_transform_1 i a) (S480x1408.size a) (S480x21168.size a)).extent (S480x1408.size a)) fun a => Pipeline.Clip.inb (Pipeline.Clip.ok_of (hstart0_1 i a))).WholeWords (EltTy.packing .f32)
  hwxs0_1 : ∀ i : grid0.Coords, EltTy.bits .f32 = 32 ∨ (Rect.unit (s := S480x1408) (fun _ => 0) (fun a => (Pipeline.Clip.of (cc0_transform_1 i a) (S480x1408.size a) (S480x21168.size a)).extent (S480x1408.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1408x768.size a < S21168x1600.size a
  hwx0_2 : ∀ i : grid0.Coords, EltTy.bits .f32 = 32 ∨ (Rect.unit (s := S21168x1600) (fun a => cc0_transform_2 i a * S1408x768.size a) (fun a => (Pipeline.Clip.of (cc0_transform_2 i a) (S1408x768.size a) (S21168x1600.size a)).extent (S1408x768.size a)) fun a => Pipeline.Clip.inb (Pipeline.Clip.ok_of (hstart0_2 i a))).WholeWords (EltTy.packing .f32)
  hwxs0_2 : ∀ i : grid0.Coords, EltTy.bits .f32 = 32 ∨ (Rect.unit (s := S1408x768) (fun _ => 0) (fun a => (Pipeline.Clip.of (cc0_transform_2 i a) (S1408x768.size a) (S21168x1600.size a)).extent (S1408x768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S160x768.size a ≤ S160x1536.size a
  hwx0_3 : ∀ i : grid0.Coords, EltTy.bits .f32 = 32 ∨ (Rect.block (s := S160x1536) S160x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S480x768.size a ≤ S480x1536.size a
  hwx0_4 : ∀ i : grid0.Coords, EltTy.bits .f32 = 32 ∨ (Rect.block (s := S480x1536) S480x768.size (cc0_transform_4 i) (hinb0_4 i)).WholeWords (EltTy.packing .f32)

variable [Facts₀]

def dot_S160x1408_S1408x768_S160x768_1_0_0_1_n_n : DotDims S160x1408 S1408x768 S160x768 where
  lhsContracting := [1]
  rhsContracting := [0]
  lhsNonContracting := [0]
  rhsNonContracting := [1]
  lhsBatch := []
  rhsBatch := []
  wf := dot_S160x1408_S1408x768_S160x768_1_0_0_1_n_n_wf
def dot_S480x1408_S1408x768_S480x768_1_0_0_1_n_n : DotDims S480x1408 S1408x768 S480x768 where
  lhsContracting := [1]
  rhsContracting := [0]
  lhsNonContracting := [0]
  rhsNonContracting := [1]
  lhsBatch := []
  rhsBatch := []
  wf := dot_S480x1408_S1408x768_S480x768_1_0_0_1_n_n_wf
def dot_S160x48_S48x1536_S160x1536_1_0_0_1_n_n : DotDims S160x48 S48x1536 S160x1536 where
  lhsContracting := [1]
  rhsContracting := [0]
  lhsNonContracting := [0]
  rhsNonContracting := [1]
  lhsBatch := []
  rhsBatch := []
  wf := dot_S160x48_S48x1536_S160x1536_1_0_0_1_n_n_wf
def dot_S480x48_S48x1536_S480x1536_1_0_0_1_n_n : DotDims S480x48 S48x1536 S480x1536 where
  lhsContracting := [1]
  rhsContracting := [0]
  lhsNonContracting := [0]
  rhsNonContracting := [1]
  lhsBatch := []
  rhsBatch := []
  wf := dot_S480x48_S48x1536_S480x1536_1_0_0_1_n_n_wf
def dot_S160x21168_S21168x64_S160x64_1_0_0_1_n_n : DotDims S160x21168 S21168x64 S160x64 where
  lhsContracting := [1]
  rhsContracting := [0]
  lhsNonContracting := [0]
  rhsNonContracting := [1]
  lhsBatch := []
  rhsBatch := []
  wf := dot_S160x21168_S21168x64_S160x64_1_0_0_1_n_n_wf
def dot_S480x21168_S21168x64_S480x64_1_0_0_1_n_n : DotDims S480x21168 S21168x64 S480x64 where
  lhsContracting := [1]
  rhsContracting := [0]
  lhsNonContracting := [0]
  rhsNonContracting := [1]
  lhsBatch := []
  rhsBatch := []
  wf := dot_S480x21168_S21168x64_S480x64_1_0_0_1_n_n_wf
def dot_S480x1600_S1600x32_S480x32_1_0_0_1_n_n : DotDims S480x1600 S1600x32 S480x32 where
  lhsContracting := [1]
  rhsContracting := [0]
  lhsNonContracting := [0]
  rhsNonContracting := [1]
  lhsBatch := []
  rhsBatch := []
  wf := dot_S480x1600_S1600x32_S480x32_1_0_0_1_n_n_wf

abbrev win0_0 : Pipeline.Window sig grid0 :=
  Pipeline.Window.ofSpecClip (Memref.whole main_v0) S160x1408.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S480x1408.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S1408x768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v2_0) S160x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S480x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x5x3x84x84 : Shape := ⟨5, ![32, 5, 3, 84, 84]⟩
abbrev S32x15x3x84x84 : Shape := ⟨5, ![32, 15, 3, 84, 84]⟩
abbrev S21168x1600 : Shape := ⟨2, ![21168, 1600]⟩
abbrev S160x21168 : Shape := ⟨2, ![160, 21168]⟩
abbrev S160x1600 : Shape := ⟨2, ![160, 1600]⟩
abbrev S32x5x1600 : Shape := ⟨3, ![32, 5, 1600]⟩
abbrev S_ : Shape := ⟨0, ![]⟩
abbrev S32x1600 : Shape := ⟨2, ![32, 1600]⟩
abbrev S480x21168 : Shape := ⟨2, ![480, 21168]⟩
abbrev S480x1600 : Shape := ⟨2, ![480, 1600]⟩
abbrev S480 : Shape := ⟨1, ![480]⟩
abbrev S480x1 : Shape := ⟨2, ![480, 1]⟩
abbrev S32 : Shape := ⟨1, ![32]⟩
abbrev S32x1 : Shape := ⟨2, ![32, 1]⟩
abbrev S1600x32 : Shape := ⟨2, ![1600, 32]⟩
abbrev S480x32 : Shape := ⟨2, ![480, 32]⟩

abbrev nBuf : Space → Nat
  | .hbm => 50
  | .vmem => 0
  | .smem => 0
  | _ => 0

abbrev bufTy : (tb : Table) → Fin (tcTables nBuf tb) → BufTy
  | .hbm, ⟨0, _⟩ => ⟨S32x5x3x84x84, .f32⟩
  | .hbm, ⟨1, _⟩ => ⟨S32x15x3x84x84, .f32⟩
  | .hbm, ⟨2, _⟩ => ⟨S21168x1600, .f32⟩
  | .hbm, ⟨3, _⟩ => ⟨S160x21168, .f32⟩
  | .hbm, ⟨4, _⟩ => ⟨S160x1600, .f32⟩
  | .hbm, ⟨5, _⟩ => ⟨S32x5x1600, .f32⟩
  | .hbm, ⟨6, _⟩ => ⟨S_, .f32⟩
  | .hbm, ⟨7, _⟩ => ⟨S32x1600, .f32⟩
  | .hbm, ⟨8, _⟩ => ⟨S_, .f32⟩
  | .hbm, ⟨9, _⟩ => ⟨S32x1600, .f32⟩
  | .hbm, ⟨10, _⟩ => ⟨S32x1600, .f32⟩
  | .hbm, ⟨11, _⟩ => ⟨S480x21168, .f32⟩
  | .hbm, ⟨12, _⟩ => ⟨S480x1600, .f32⟩
  | .hbm, ⟨13, _⟩ => ⟨S480x1600, .f32⟩
  | .hbm, ⟨14, _⟩ => ⟨S_, .f32⟩
  | .hbm, ⟨15, _⟩ => ⟨S480, .f32⟩
  | .hbm, ⟨16, _⟩ => ⟨S480x1, .f32⟩
  | .hbm, ⟨17, _⟩ => ⟨S480x1, .f32⟩
  | .hbm, ⟨18, _⟩ => ⟨S_, .f32⟩
  | .hbm, ⟨19, _⟩ => ⟨S480x1, .f32⟩
  | .hbm, ⟨20, _⟩ => ⟨S480x1, .f32⟩
  | .hbm, ⟨21, _⟩ => ⟨S480x1600, .f32⟩
  | .hbm, ⟨22, _⟩ => ⟨S480x1600, .f32⟩
  | .hbm, ⟨23, _⟩ => ⟨S32x1600, .f32⟩
  | .hbm, ⟨24, _⟩ => ⟨S_, .f32⟩
  | .hbm, ⟨25, _⟩ => ⟨S32, .f32⟩
  | .hbm, ⟨26, _⟩ => ⟨S32x1, .f32⟩
  | .hbm, ⟨27, _⟩ => ⟨S32x1, .f32⟩
  | .hbm, ⟨28, _⟩ => ⟨S_, .f32⟩
  | .hbm, ⟨29, _⟩ => ⟨S32x1, .f32⟩
  | .hbm, ⟨30, _⟩ => ⟨S32x1, .f32⟩
  | .hbm, ⟨31, _⟩ => ⟨S32x1600, .f32⟩
  | .hbm, ⟨32, _⟩ => ⟨S32x1600, .f32⟩
  | .hbm, ⟨33, _⟩ => ⟨S1600x32, .f32⟩
  | .hbm, ⟨34, _⟩ => ⟨S480x32, .f32⟩
  | .hbm, ⟨35, _⟩ => ⟨S_, .f32⟩
  | .hbm, ⟨36, _⟩ => ⟨S480, .f32⟩
  | .hbm, ⟨37, _⟩ => ⟨S_, .f32⟩
  | .hbm, ⟨38, _⟩ => ⟨S480, .f32⟩
  | .hbm, ⟨39, _⟩ => ⟨S480, .f32⟩
  | .hbm, ⟨40, _⟩ => ⟨S480x1, .f32⟩
  | .hbm, ⟨41, _⟩ => ⟨S480x32, .f32⟩
  | .hbm, ⟨42, _⟩ => ⟨S480x32, .f32⟩
  | .hbm, ⟨43, _⟩ => ⟨S480x32, .f32⟩
  | .hbm, ⟨44, _⟩ => ⟨S_, .f32⟩
  | .hbm, ⟨45, _⟩ => ⟨S480, .f32⟩
  | .hbm, ⟨46, _⟩ => ⟨S480x1, .f32⟩
  | .hbm, ⟨47, _⟩ => ⟨S480x1, .f32⟩
  | .hbm, ⟨48, _⟩ => ⟨S480x32, .f32⟩
  | .hbm, ⟨49, _⟩ => ⟨S480x32, .f32⟩
  | _, _ => ⟨S32x5x3x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_cst : Ref sig .tc := ⟨.hbm, 35, rfl⟩
abbrev main_call2_v0 : Ref sig .tc := ⟨.hbm, 36, rfl⟩
abbrev main_call2_cst_0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_cst_1 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_v20 : Ref sig .tc := ⟨.hbm, 49, rfl⟩

abbrev nD : Nat := 1
abbrev τ : Topo := Topo.v7x

variable {F : FTy → Type} [FloatOps F]

class Facts₀ : Prop where
  shapeCasts_S32x5x3x84x84_S160x21168 : S32x5x3x84x84.ShapeCasts S160x21168
  shapeCasts_S160x1600_S32x5x1600 : S160x1600.ShapeCasts S32x5x1600
  reducesTo_S32x5x1600_S32x1600_d1 : S32x5x1600.ReducesTo [1] S32x1600
  h_S_ : 0 < S_.numel
  bcast_S_S32x1600 : S_.BroadcastsInDim S32x1600 (![] : Fin 0 → Fin S32x1600.rank)
  shapeCasts_S32x15x3x84x84_S480x21168 : S32x15x3x84x84.ShapeCasts S480x21168
  reducesTo_S480x1600_S480_d1 : S480x1600.ReducesTo [1] S480
  bcast_S480_S480x1_0 : S480.BroadcastsInDim S480x1 (![0] : Fin 1 → Fin S480x1.rank)
  bcast_S_S480x1 : S_.BroadcastsInDim S480x1 (![] : Fin 0 → Fin S480x1.rank)
  bcast_S480x1_S480x1600_0_1 : S480x1.BroadcastsInDim S480x1600 (![0, 1] : Fin 2 → Fin S480x1600.rank)
  reducesTo_S32x1600_S32_d1 : S32x1600.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1600_0_1 : S32x1.BroadcastsInDim S32x1600 (![0, 1] : Fin 2 → Fin S32x1600.rank)
  transposes_S32x1600_S1600x32_1_0 : S32x1600.Transposes [1, 0] S1600x32
  reducesTo_S480x32_S480_d1 : S480x32.ReducesTo [1] S480
  bcast_S_S480 : S_.BroadcastsInDim S480 (![] : Fin 0 → Fin S480.rank)
  bcast_S480x1_S480x32_0_1 : S480x1.BroadcastsInDim S480x32 (![0, 1] : Fin 2 → Fin S480x32.rank)
  dot_S160x21168_S21168x1600_S160x1600_1_0_0_1_n_n_wf : DotDims.WF S160x21168 S21168x1600 S160x1600 [1] [0] [0] [1] [] []
  dot_S480x21168_S21168x1600_S480x1600_1_0_0_1_n_n_wf : DotDims.WF S480x21168 S21168x1600 S480x1600 [1] [0] [0] [1] [] []
  dot_S480x1600_S1600x32_S480x32_1_0_0_1_n_n_wf : DotDims.WF S480x1600 S1600x32 S480x32 [1] [0] [0] [1] [] []

variable [Facts₀]

def dot_S160x21168_S21168x1600_S160x1600_1_0_0_1_n_n : DotDims S160x21168 S21168x1600 S160x1600 where
  lhsContracting := [1]
  rhsContracting := [0]
  lhsNonContracting := [0]
  rhsNonContracting := [1]
  lhsBatch := []
  rhsBatch := []
  wf := dot_S160x21168_S21168x1600_S160x1600_1_0_0_1_n_n_wf
def dot_S480x21168_S21168x1600_S480x1600_1_0_0_1_n_n : DotDims S480x21168 S21168x1600 S480x1600 where
  lhsContracting := [1]
  rhsContracting := [0]
  lhsNonContracting := [0]
  rhsNonContracting := [1]
  lhsBatch := []
  rhsBatch := []
  wf := dot_S480x21168_S21168x1600_S480x1600_1_0_0_1_n_n_wf
def dot_S480x1600_S1600x32_S480x32_1_0_0_1_n_n : DotDims S480x1600 S1600x32 S480x32 where
  lhsContracting := [1]
  rhsContracting := [0]
  lhsNonContracting := [0]
  rhsNonContracting := [1]
  lhsBatch := []
  rhsBatch := []
  wf := dot_S480x1600_S1600x32_S480x32_1_0_0_1_n_n_wf

class Facts : Prop extends Facts₀ where

variable [Facts]
-- ==== Proof.FrameShared.lean ====
/-
  The dual-product kernel walks a 2 × 15 grid: the first coordinate picks one of two tiles of 768 feature
  columns, the second one of fifteen tiles of 1408 contraction positions.  At the first contraction tile it
  zeroes two accumulators it keeps between points; at every tile it adds that tile's two products to them;
  at the last tile it copies them to the two result blocks, which are written back only there.  What is
  collected here is shared by the three control cases of the body (first tile, middle tile, last tile):
  the two branch conditions decided over the grid, where the result windows rest, the memrefs the body is
  called with, and the blocks the three argument windows hold when the body runs.
-/
import proofs.«173117_j45646912422244_2_alg».proof.Proof.Gen.KernelIdeal.Frame
import proofs.«173117_j45646912422244_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions -/

/-- The body's first branch: the contraction tile is the first one. -/
abbrev cond0_0 (i : grid0.Coords) : Prop := (Scalar.cmpi .ne (Scalar.extui (Scalar.cmpi .eq (BitVec.ofNat 32 (i 1).val) 0#32)) 0#32) = 1#1
/-- It holds at the points whose number is a multiple of fifteen. -/
theorem hcond0_0 : ∀ t : Fin cfg0.N, cond0_0 (grid0.coords t) ↔ t.val % 15 = 0 :=
  (by decide +kernel : ∀ t : Fin grid0.N, cond0_0 (grid0.coords t) ↔ t.val % 15 = 0)

/-- The body's second branch: the contraction tile is the last one. -/
abbrev cond0_1 (i : grid0.Coords) : Prop := k0_cond2 i = 1#1
/-- It holds at the points whose number is fourteen modulo fifteen. -/
theorem hcond0_1 : ∀ t : Fin cfg0.N, cond0_1 (grid0.coords t) ↔ t.val % 15 = 14 :=
  (by decide +kernel : ∀ t : Fin grid0.N, cond0_1 (grid0.coords t) ↔ t.val % 15 = 14)

/-! ## Where the windows rest -/

/-- The three argument windows never rest. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last contraction tile the two result windows rest and are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last contraction tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

abbrev VO0_3 : View sig .tc .vmem S160x768 .f32 := (Memref.whole cc0_stg3_0 : Memref sig .tc .vmem S160x768 .f32).view
abbrev VO0_4 : View sig .tc .vmem S480x768 .f32 := (Memref.whole cc0_stg4_0 : Memref sig .tc .vmem S480x768 .f32).view
abbrev ms0_0 (t : Fin cfg0.N) : Memref sig .tc .vmem S160x1408 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S480x1408 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1408x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S160x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S480x768 .f32 := win0_4.stage (cfg0.slots t 4)
abbrev hs0_4 (t : Fin cfg0.N) : (ms0_4 t).IsWhole := hstage0_4 ((cfg0.slots t 4).cast nbuf0_4)
/-- The two accumulators: whole buffers of the kernel's own, passed beside the windows. -/
abbrev scM0_0 : Memref sig .tc .vmem S160x768 .f32 := Memref.whole cc0_scratch0
abbrev scM0_1 : Memref sig .tc .vmem S480x768 .f32 := Memref.whole cc0_scratch1
abbrev VS0_0 : View sig .tc .vmem S160x768 .f32 := scM0_0.view
abbrev VS0_1 : View sig .tc .vmem S480x768 .f32 := scM0_1.view

/-- What the region hands the body besides the windows: the two accumulators at some contents and the
    random-number register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The argument windows' blocks

No point of the grid reaches a block that overhangs its array (15 · 1408 ≤ 21168 and 2 · 768 ≤ 1600), so
every fetch fills the whole staging buffer with the array's block. -/

theorem noclip0_0 : ∀ (t : Fin cfg0.N) a, (cfg0.win 0).clip (grid0.coords t) a = none :=
  (by decide +kernel : ∀ (t : Fin grid0.N) a, win0_0.clip (grid0.coords t) a = none)
theorem noclip0_1 : ∀ (t : Fin cfg0.N) a, (cfg0.win 1).clip (grid0.coords t) a = none :=
  (by decide +kernel : ∀ (t : Fin grid0.N) a, win0_1.clip (grid0.coords t) a = none)
theorem noclip0_2 : ∀ (t : Fin cfg0.N) a, (cfg0.win 2).clip (grid0.coords t) a = none :=
  (by decide +kernel : ∀ (t : Fin grid0.N) a, win0_2.clip (grid0.coords t) a = none)

/-- Argument window `w`'s block at point `t` as the staging buffer holds it: the array's block, spread over
    the whole buffer (nothing of the buffer's former contents is left, the block not being cut). -/
def inblk (c : Dev nD) (w : Fin cfg0.W) (t : Fin cfg0.N) : (cfg0.win w).block.Idx → Elt F (cfg0.win w).elt :=
  (cfg0.win w).fill (grid0.coords t) (fun _ => Classical.arbitrary _) (iblk m c w t)

/-- Each argument window is fetched at every point, so for any proof data whose array is the region-entry
    contents its staging buffer holds the block when the body runs. -/
theorem before_in_of {c : Dev nD} (dat : Dat τ (Elt F) Unit ℕ (UR sig nD τ) ℕ cfg0 c) (w : Fin cfg0.W)
    (hA : dat.A w = V m c (Pipeline.arrRef spec0 w)) (hf : ∀ t, (cfg0.win w).fetch t = true)
    (hclip : ∀ (t : Fin cfg0.N) a, (cfg0.win w).clip (grid0.coords t) a = none) (t : Fin cfg0.N) (d) :
    dat.before w t d = inblk m c w t := by
  rw [dat.before_fetched w t (hf t)]
  unfold Dat.fetched Dat.blockOf inblk iblk
  rw [hA]
  exact Pipeline.fill_of_clip_none w _ (hclip t) _ _ _

end Cert.KernelIdeal.Hand

end
-- ==== Proof.FrameRunA.lean ====
/-
  The body at a point of the FIRST contraction tile: both accumulators are zeroed, whatever they held, then
  take the tile's two products; the result blocks are not touched.
-/
import proofs.«173117_j45646912422244_2_alg».proof.Proof.Gen.KernelIdeal.Frame
import proofs.«173117_j45646912422244_2_alg».proof.Proof.Gen.KernelIdeal.Skeleton
import proofs.«173117_j45646912422244_2_alg».proof.Proof.FrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers (none) and in the two accumulators at a point
    of the first contraction tile, with the proof that from whole memrefs — the three argument blocks at
    their contents, the result buffers at contents handed back untouched, the accumulators at anything — the
    body runs to the continuation holding the argument blocks and result buffers as they were and the
    accumulators with those pieces written. -/
noncomputable def kernelRun0_A (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i)
    (x0 : Vec F S160x1408 .f32) (x1 : Vec F S480x1408 .f32) (x2 : Vec F S1408x768 .f32) :
    Σ' (L3 : List (View.Piece (Elt F) S160x768 .f32)) (L4 : List (View.Piece (Elt F) S480x768 .f32)) (LS0 : List (View.Piece (Elt F) S160x768 .f32)), { LS1 : List (View.Piece (Elt F) S480x768 .f32) //
      ∀ (xi3 : Vec F S160x768 .f32) (xi4 : Vec F S480x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dual_matmul_kernel i arg2 harg2 arg3 harg3 arg4 harg4 arg5 harg5 arg6 harg6 arg7 harg7 arg8 harg8) K } := by
  refine ⟨[], [], ?_, ?_, fun xi3 xi4 E K => ?run⟩
  case run =>
    simp only [cc0__dual_matmul_kernel_eq_skeleton]; unfold cc0__dual_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.FrameRunB.lean ====
/-
  The body at a point of a MIDDLE contraction tile: each accumulator takes what it held plus the tile's
  product; the result blocks are not touched.
-/
import proofs.«173117_j45646912422244_2_alg».proof.Proof.Gen.KernelIdeal.Frame
import proofs.«173117_j45646912422244_2_alg».proof.Proof.Gen.KernelIdeal.Skeleton
import proofs.«173117_j45646912422244_2_alg».proof.Proof.FrameRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at a point of a middle contraction tile (none in the result buffers,
    one in each accumulator), with the body's run from the argument blocks, the result buffers handed back
    untouched, and the accumulators at what the point before left. -/
noncomputable def kernelRun0_B (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i)
    (x0 : Vec F S160x1408 .f32) (x1 : Vec F S480x1408 .f32) (x2 : Vec F S1408x768 .f32) (xs0 : Vec F S160x768 .f32) (xs1 : Vec F S480x768 .f32) :
    Σ' (L3 : List (View.Piece (Elt F) S160x768 .f32)) (L4 : List (View.Piece (Elt F) S480x768 .f32)) (LS0 : List (View.Piece (Elt F) S160x768 .f32)), { LS1 : List (View.Piece (Elt F) S480x768 .f32) //
      ∀ (xi3 : Vec F S160x768 .f32) (xi4 : Vec F S480x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dual_matmul_kernel i arg2 harg2 arg3 harg3 arg4 harg4 arg5 harg5 arg6 harg6 arg7 harg7 arg8 harg8) K } := by
  refine ⟨[], [], ?_, ?_, fun xi3 xi4 E K => ?run⟩
  case run =>
    simp only [cc0__dual_matmul_kernel_eq_skeleton]; unfold cc0__dual_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.FrameRunC.lean ====
/-
  The body at a point of the LAST contraction tile: each accumulator takes what it held plus the tile's
  product, and is then copied whole into its result block.
-/
import proofs.«173117_j45646912422244_2_alg».proof.Proof.Gen.KernelIdeal.Frame
import proofs.«173117_j45646912422244_2_alg».proof.Proof.Gen.KernelIdeal.Skeleton
import proofs.«173117_j45646912422244_2_alg».proof.Proof.FrameRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at a point of the last contraction tile (one in each result buffer, one
    in each accumulator), with the body's run from the argument blocks, the result buffers at anything, and
    the accumulators at what the point before left. -/
noncomputable def kernelRun0_C (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i)
    (x0 : Vec F S160x1408 .f32) (x1 : Vec F S480x1408 .f32) (x2 : Vec F S1408x768 .f32) (xs0 : Vec F S160x768 .f32) (xs1 : Vec F S480x768 .f32) :
    Σ' (L3 : List (View.Piece (Elt F) S160x768 .f32)) (L4 : List (View.Piece (Elt F) S480x768 .f32)) (LS0 : List (View.Piece (Elt F) S160x768 .f32)), { LS1 : List (View.Piece (Elt F) S480x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dual_matmul_kernel i arg2 harg2 arg3 harg3 arg4 harg4 arg5 harg5 arg6 harg6 arg7 harg7 arg8 harg8) K } := by
  refine ⟨?_, ?_, ?_, ?_, fun E K => ?run⟩
  case run =>
    simp only [cc0__dual_matmul_kernel_eq_skeleton]; unfold cc0__dual_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [HS0]
    · iexists _; iexact HS0
    iexists _; iexact HS1

end Cert.KernelIdeal.Hand

end
-- ==== Proof.FramePieces.lean ====
/-
  What the body leaves, case by case: the pieces each run stores into the accumulators (and, at the last
  contraction tile, into the result buffers) cover those buffers, so each buffer's contents after the body is
  those pieces read back.
-/
import proofs.«173117_j45646912422244_2_alg».proof.Proof.Gen.KernelIdeal.Frame
import proofs.«173117_j45646912422244_2_alg».proof.Proof.Gen.KernelIdeal.Skeleton
import proofs.«173117_j45646912422244_2_alg».proof.Proof.FrameRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a point of the first contraction tile the pieces stored into the first accumulator tile it. -/
theorem scover0_A_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) (y : S160x768.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S160x768.size (by sl_kernel_rfl) y
/-- What the first accumulator then holds: those pieces read back. -/
def sout0_A_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) : Vec F S160x768 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)
/-- The same for the second accumulator. -/
theorem scover0_A_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) (y : S480x768.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S480x768.size (by sl_kernel_rfl) y
def sout0_A_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) : Vec F S480x768 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- At a point of a middle contraction tile the pieces stored into the first accumulator tile it. -/
theorem scover0_B_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) (y : S160x768.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S160x768.size (by sl_kernel_rfl) y
/-- What the first accumulator then holds: those pieces read back. -/
def sout0_B_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) : Vec F S160x768 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)
/-- The same for the second accumulator. -/
theorem scover0_B_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) (y : S480x768.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S480x768.size (by sl_kernel_rfl) y
def sout0_B_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) : Vec F S480x768 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

/-- At a point of the last contraction tile the pieces stored into the first accumulator tile it. -/
theorem scover0_C_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) (y : S160x768.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S160x768.size (by sl_kernel_rfl) y
/-- What the first accumulator then holds: those pieces read back. -/
def sout0_C_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) : Vec F S160x768 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)
/-- The same for the second accumulator. -/
theorem scover0_C_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) (y : S480x768.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S480x768.size (by sl_kernel_rfl) y
def sout0_C_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) : Vec F S480x768 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-- At a point of the last contraction tile the pieces stored into the first result buffer tile it. -/
theorem cover0_C_3 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) (y : S160x768.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S160x768.size (by sl_kernel_rfl) y
/-- What the first result buffer then holds. -/
def out0_C_3 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) : Vec F S160x768 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)
theorem cover0_C_4 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) (y : S480x768.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S480x768.size (by sl_kernel_rfl) y
/-- What the second result buffer then holds. -/
def out0_C_4 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) : Vec F S480x768 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- A result buffer where the body stores nothing: contents nothing consults (the window rests there and is
    neither written back nor read at the next point). -/
def rest3 : Vec F S160x768 .f32 := VO0_3.read (Elt F) VO0_3.junk
def rest4 : Vec F S480x768 .f32 := VO0_4.read (Elt F) VO0_4.junk

end Cert.KernelIdeal.Hand

end
-- ==== Proof.FrameData.lean ====
/-
  The proof data of the one pipeline and its body obligation.  After the body at point `n` the two
  accumulators hold: at a first contraction tile, that tile's products over zero; at a later tile, what the
  point before left plus that tile's products; and at a last tile the two result buffers hold the
  accumulators.  The region's invariant carries the accumulators from point to point.
-/
import proofs.«173117_j45646912422244_2_alg».proof.Proof.Gen.KernelIdeal.Frame
import proofs.«173117_j45646912422244_2_alg».proof.Proof.Gen.KernelIdeal.Skeleton
import proofs.«173117_j45646912422244_2_alg».proof.Proof.FramePieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result buffers and the accumulators hold after each point -/

/-- After the body at point `n`: the two result buffers, then the two accumulators. -/
def outsAt0 (c : Dev nD) : (n : ℕ) → n < cfg0.N → Vec F S160x768 .f32 × Vec F S480x768 .f32 × Vec F S160x768 .f32 × Vec F S480x768 .f32
  | 0, hn => (rest3, rest4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by (try dsimp only); omega)) (inblk m c 0 ⟨0, hn⟩) (inblk m c 1 ⟨0, hn⟩) (inblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by (try dsimp only); omega)) (inblk m c 0 ⟨0, hn⟩) (inblk m c 1 ⟨0, hn⟩) (inblk m c 2 ⟨0, hn⟩))
  | n + 1, hn =>
    if h0 : (n + 1) % 15 = 0 then
      (rest3, rest4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => absurd ((hcond0_1 ⟨n + 1, hn⟩).mp h) (by (try dsimp only); omega)) (inblk m c 0 ⟨n + 1, hn⟩) (inblk m c 1 ⟨n + 1, hn⟩) (inblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => absurd ((hcond0_1 ⟨n + 1, hn⟩).mp h) (by (try dsimp only); omega)) (inblk m c 0 ⟨n + 1, hn⟩) (inblk m c 1 ⟨n + 1, hn⟩) (inblk m c 2 ⟨n + 1, hn⟩))
    else
      if h1 : (n + 1) % 15 = 14 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2)
      else
        (rest3, rest4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 15 = 0) (h1 : ¬t.val % 15 = 14) :
    outsAt0 m c t.val t.isLt = (rest3, rest4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (inblk m c 0 t) (inblk m c 1 t) (inblk m c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (inblk m c 0 t) (inblk m c 1 t) (inblk m c 2 t)) := by
  obtain ⟨n, hn⟩ := t
  cases n with
  | zero => exact rfl
  | succ n => exact (dif_pos h0).trans rfl

theorem outsAt0_B (c : Dev nD) (t : Fin cfg0.N) (h0 : ¬t.val % 15 = 0) (h1 : ¬t.val % 15 = 14) :
    outsAt0 m c t.val t.isLt = (rest3, rest4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 15 = 0) (h1 : t.val % 15 = 14) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the two accumulators at anything;
    afterwards each at what the point before left in it; and the random-number register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body each argument window's buffer at its block, the result
    buffers at `outsAt0`'s first two components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inblk m c 0 t
    | ⟨1, _⟩ => inblk m c 1 t
    | ⟨2, _⟩ => inblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = inblk m c 0 t := by dsimp only [dats]
theorem after0_1 (c : Dev nD) (t : Fin cfg0.N) : (dats m 0 c).after 1 t = inblk m c 1 t := by dsimp only [dats]
theorem after0_2 (c : Dev nD) (t : Fin cfg0.N) : (dats m 0 c).after 2 t = inblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = inblk m c 0 t :=
  before_in_of m (dats m 0 c) 0 (A_eq m c 0) fetch0_0 noclip0_0 t d
theorem before0_1 (c : Dev nD) (t : Fin cfg0.N) (d) : (dats m 0 c).before 1 t d = inblk m c 1 t :=
  before_in_of m (dats m 0 c) 1 (A_eq m c 1) fetch0_1 noclip0_1 t d
theorem before0_2 (c : Dev nD) (t : Fin cfg0.N) (d) : (dats m 0 c).before 2 t d = inblk m c 2 t :=
  before_in_of m (dats m 0 c) 2 (A_eq m c 2) fetch0_2 noclip0_2 t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) :
    (dats m 0 c).leavesExact 0 t = owns (c : Thread nD τ) (ms0_0 t) fullShare (inblk m c 0 t) := by
  rw [show (dats m 0 c).leavesExact 0 t = owns (c : Thread nD τ) (ms0_0 t) fullShare ((dats m 0 c).after 0 t) from by
    unfold Dat.leavesExact; rw [liveAt0_0 t], after0_0]
theorem leaves_in1 (c : Dev nD) (t : Fin cfg0.N) :
    (dats m 0 c).leavesExact 1 t = owns (c : Thread nD τ) (ms0_1 t) fullShare (inblk m c 1 t) := by
  rw [show (dats m 0 c).leavesExact 1 t = owns (c : Thread nD τ) (ms0_1 t) fullShare ((dats m 0 c).after 1 t) from by
    unfold Dat.leavesExact; rw [liveAt0_1 t], after0_1]
theorem leaves_in2 (c : Dev nD) (t : Fin cfg0.N) :
    (dats m 0 c).leavesExact 2 t = owns (c : Thread nD τ) (ms0_2 t) fullShare (inblk m c 2 t) := by
  rw [show (dats m 0 c).leavesExact 2 t = owns (c : Thread nD τ) (ms0_2 t) fullShare ((dats m 0 c).after 2 t) from by
    unfold Dat.leavesExact; rw [liveAt0_2 t], after0_2]

set_option maxHeartbeats 8000000 in
/-- The body at any point: the argument buffers hold their blocks; the point's number modulo fifteen says
    which case it is in; the invariant hands the accumulators over at what the point before left (at anything
    before the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have hN : t.val < 30 := lt_of_lt_of_eq t.isLt (show cfg0.N = 30 from N_0)
  by_cases h0 : t.val % 15 = 0
  · have h1 : ¬t.val % 15 = 14 := by omega
    rw [Dat.leavesExact_idle (dats m 0 c) 3 t (idleAt0_3 t (fun h => h1 ((hcond0_1 t).mp h))) (noFlush0_3 t (fun h => h1 ((hcond0_1 t).mp h)))]
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (inblk m c 0 t) (inblk m c 1 t) (inblk m c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (inblk m c 0 t) (inblk m c 1 t) (inblk m c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 15 = 14
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_3 out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (inblk m c 0 t) (inblk m c 1 t) (inblk m c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      · unfold owns; iexists _; isplitr
        swap; · iexact H4
        ipureintro; exact View.read_writes_of_cover _ _ _ _ _ (cover0_C_4 c _ _ _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (inblk m c 0 t) (inblk m c 1 t) (inblk m c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 30 := N_0; omega)

/-! ## The run and the frame -/

set_option backward.isDefEq.respectTransparency.types false in
/-- Every weakly fair execution of the program terminates, and every final state has each array of the
    pipeline at what the library computes from the proof data and every other unscoped buffer as the host
    operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := A_eq m) (hin := hin m) (hout := hout m)

/-- The frame: the program runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KFrameShared.lean ====
/-
  The dual-product kernel walks a 2 × 15 grid: the first coordinate picks one of two tiles of 768 feature
  columns, the second one of fifteen tiles of 1408 contraction positions.  At the first contraction tile it
  zeroes two accumulators it keeps between points; at every tile it adds that tile's two products to them;
  at the last tile it copies them to the two result blocks, which are written back only there.  What is
  collected here is shared by the three control cases of the body (first tile, middle tile, last tile):
  the two branch conditions decided over the grid, where the result windows rest, the memrefs the body is
  called with, and the blocks the three argument windows hold when the body runs.
-/
import proofs.«173117_j45646912422244_2_alg».proof.Proof.Gen.Kernel.Frame
import proofs.«173117_j45646912422244_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions -/

/-- The body's first branch: the contraction tile is the first one. -/
abbrev cond0_0 (i : grid0.Coords) : Prop := (Scalar.cmpi .ne (Scalar.extui (Scalar.cmpi .eq (BitVec.ofNat 32 (i 1).val) 0#32)) 0#32) = 1#1
/-- It holds at the points whose number is a multiple of fifteen. -/
theorem hcond0_0 : ∀ t : Fin cfg0.N, cond0_0 (grid0.coords t) ↔ t.val % 15 = 0 :=
  (by decide +kernel : ∀ t : Fin grid0.N, cond0_0 (grid0.coords t) ↔ t.val % 15 = 0)

/-- The body's second branch: the contraction tile is the last one. -/
abbrev cond0_1 (i : grid0.Coords) : Prop := k0_cond2 i = 1#1
/-- It holds at the points whose number is fourteen modulo fifteen. -/
theorem hcond0_1 : ∀ t : Fin cfg0.N, cond0_1 (grid0.coords t) ↔ t.val % 15 = 14 :=
  (by decide +kernel : ∀ t : Fin grid0.N, cond0_1 (grid0.coords t) ↔ t.val % 15 = 14)

/-! ## Where the windows rest -/

/-- The three argument windows never rest. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last contraction tile the two result windows rest and are not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last contraction tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

abbrev VO0_3 : View sig .tc .vmem S160x768 .f32 := (Memref.whole cc0_stg3_0 : Memref sig .tc .vmem S160x768 .f32).view
abbrev VO0_4 : View sig .tc .vmem S480x768 .f32 := (Memref.whole cc0_stg4_0 : Memref sig .tc .vmem S480x768 .f32).view
abbrev ms0_0 (t : Fin cfg0.N) : Memref sig .tc .vmem S160x1408 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S480x1408 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1408x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S160x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S480x768 .f32 := win0_4.stage (cfg0.slots t 4)
abbrev hs0_4 (t : Fin cfg0.N) : (ms0_4 t).IsWhole := hstage0_4 ((cfg0.slots t 4).cast nbuf0_4)
/-- The two accumulators: whole buffers of the kernel's own, passed beside the windows. -/
abbrev scM0_0 : Memref sig .tc .vmem S160x768 .f32 := Memref.whole cc0_scratch0
abbrev scM0_1 : Memref sig .tc .vmem S480x768 .f32 := Memref.whole cc0_scratch1
abbrev VS0_0 : View sig .tc .vmem S160x768 .f32 := scM0_0.view
abbrev VS0_1 : View sig .tc .vmem S480x768 .f32 := scM0_1.view

/-- What the region hands the body besides the windows: the two accumulators at some contents and the
    random-number register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The argument windows' blocks

No point of the grid reaches a block that overhangs its array (15 · 1408 ≤ 21168 and 2 · 768 ≤ 1600), so
every fetch fills the whole staging buffer with the array's block. -/

theorem noclip0_0 : ∀ (t : Fin cfg0.N) a, (cfg0.win 0).clip (grid0.coords t) a = none :=
  (by decide +kernel : ∀ (t : Fin grid0.N) a, win0_0.clip (grid0.coords t) a = none)
theorem noclip0_1 : ∀ (t : Fin cfg0.N) a, (cfg0.win 1).clip (grid0.coords t) a = none :=
  (by decide +kernel : ∀ (t : Fin grid0.N) a, win0_1.clip (grid0.coords t) a = none)
theorem noclip0_2 : ∀ (t : Fin cfg0.N) a, (cfg0.win 2).clip (grid0.coords t) a = none :=
  (by decide +kernel : ∀ (t : Fin grid0.N) a, win0_2.clip (grid0.coords t) a = none)

/-- Argument window `w`'s block at point `t` as the staging buffer holds it: the array's block, spread over
    the whole buffer (nothing of the buffer's former contents is left, the block not being cut). -/
def inblk (c : Dev nD) (w : Fin cfg0.W) (t : Fin cfg0.N) : (cfg0.win w).block.Idx → Elt F (cfg0.win w).elt :=
  (cfg0.win w).fill (grid0.coords t) (fun _ => Classical.arbitrary _) (iblk m c w t)

/-- Each argument window is fetched at every point, so for any proof data whose array is the region-entry
    contents its staging buffer holds the block when the body runs. -/
theorem before_in_of {c : Dev nD} (dat : Dat τ (Elt F) Unit ℕ (UR sig nD τ) ℕ cfg0 c) (w : Fin cfg0.W)
    (hA : dat.A w = V m c (Pipeline.arrRef spec0 w)) (hf : ∀ t, (cfg0.win w).fetch t = true)
    (hclip : ∀ (t : Fin cfg0.N) a, (cfg0.win w).clip (grid0.coords t) a = none) (t : Fin cfg0.N) (d) :
    dat.before w t d = inblk m c w t := by
  rw [dat.before_fetched w t (hf t)]
  unfold Dat.fetched Dat.blockOf inblk iblk
  rw [hA]
  exact Pipeline.fill_of_clip_none w _ (hclip t) _ _ _

end Cert.Kernel.Hand

end
-- ==== Proof.KFrameRunA.lean ====
/-
  The body at a point of the FIRST contraction tile: both accumulators are zeroed, whatever they held, then
  take the tile's two products; the result blocks are not touched.
-/
import proofs.«173117_j45646912422244_2_alg».proof.Proof.Gen.Kernel.Frame
import proofs.«173117_j45646912422244_2_alg».proof.Proof.Gen.Kernel.Skeleton
import proofs.«173117_j45646912422244_2_alg».proof.Proof.KFrameShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers (none) and in the two accumulators at a point
    of the first contraction tile, with the proof that from whole memrefs — the three argument blocks at
    their contents, the result buffers at contents handed back untouched, the accumulators at anything — the
    body runs to the continuation holding the argument blocks and result buffers as they were and the
    accumulators with those pieces written. -/
noncomputable def kernelRun0_A (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i)
    (x0 : Vec F S160x1408 .f32) (x1 : Vec F S480x1408 .f32) (x2 : Vec F S1408x768 .f32) :
    Σ' (L3 : List (View.Piece (Elt F) S160x768 .f32)) (L4 : List (View.Piece (Elt F) S480x768 .f32)) (LS0 : List (View.Piece (Elt F) S160x768 .f32)), { LS1 : List (View.Piece (Elt F) S480x768 .f32) //
      ∀ (xi3 : Vec F S160x768 .f32) (xi4 : Vec F S480x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dual_matmul_kernel i arg2 harg2 arg3 harg3 arg4 harg4 arg5 harg5 arg6 harg6 arg7 harg7 arg8 harg8) K } := by
  refine ⟨[], [], ?_, ?_, fun xi3 xi4 E K => ?run⟩
  case run =>
    simp only [cc0__dual_matmul_kernel_eq_skeleton]; unfold cc0__dual_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.KFrameRunB.lean ====
/-
  The body at a point of a MIDDLE contraction tile: each accumulator takes what it held plus the tile's
  product; the result blocks are not touched.
-/
import proofs.«173117_j45646912422244_2_alg».proof.Proof.Gen.Kernel.Frame
import proofs.«173117_j45646912422244_2_alg».proof.Proof.Gen.Kernel.Skeleton
import proofs.«173117_j45646912422244_2_alg».proof.Proof.KFrameRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at a point of a middle contraction tile (none in the result buffers,
    one in each accumulator), with the body's run from the argument blocks, the result buffers handed back
    untouched, and the accumulators at what the point before left. -/
noncomputable def kernelRun0_B (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i)
    (x0 : Vec F S160x1408 .f32) (x1 : Vec F S480x1408 .f32) (x2 : Vec F S1408x768 .f32) (xs0 : Vec F S160x768 .f32) (xs1 : Vec F S480x768 .f32) :
    Σ' (L3 : List (View.Piece (Elt F) S160x768 .f32)) (L4 : List (View.Piece (Elt F) S480x768 .f32)) (LS0 : List (View.Piece (Elt F) S160x768 .f32)), { LS1 : List (View.Piece (Elt F) S480x768 .f32) //
      ∀ (xi3 : Vec F S160x768 .f32) (xi4 : Vec F S480x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dual_matmul_kernel i arg2 harg2 arg3 harg3 arg4 harg4 arg5 harg5 arg6 harg6 arg7 harg7 arg8 harg8) K } := by
  refine ⟨[], [], ?_, ?_, fun xi3 xi4 E K => ?run⟩
  case run =>
    simp only [cc0__dual_matmul_kernel_eq_skeleton]; unfold cc0__dual_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.KFrameRunC.lean ====
/-
  The body at a point of the LAST contraction tile: each accumulator takes what it held plus the tile's
  product, and is then copied whole into its result block.
-/
import proofs.«173117_j45646912422244_2_alg».proof.Proof.Gen.Kernel.Frame
import proofs.«173117_j45646912422244_2_alg».proof.Proof.Gen.Kernel.Skeleton
import proofs.«173117_j45646912422244_2_alg».proof.Proof.KFrameRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at a point of the last contraction tile (one in each result buffer, one
    in each accumulator), with the body's run from the argument blocks, the result buffers at anything, and
    the accumulators at what the point before left. -/
noncomputable def kernelRun0_C (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i)
    (x0 : Vec F S160x1408 .f32) (x1 : Vec F S480x1408 .f32) (x2 : Vec F S1408x768 .f32) (xs0 : Vec F S160x768 .f32) (xs1 : Vec F S480x768 .f32) :
    Σ' (L3 : List (View.Piece (Elt F) S160x768 .f32)) (L4 : List (View.Piece (Elt F) S480x768 .f32)) (LS0 : List (View.Piece (Elt F) S160x768 .f32)), { LS1 : List (View.Piece (Elt F) S480x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__dual_matmul_kernel i arg2 harg2 arg3 harg3 arg4 harg4 arg5 harg5 arg6 harg6 arg7 harg7 arg8 harg8) K } := by
  refine ⟨?_, ?_, ?_, ?_, fun E K => ?run⟩
  case run =>
    simp only [cc0__dual_matmul_kernel_eq_skeleton]; unfold cc0__dual_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [HS0]
    · iexists _; iexact HS0
    iexists _; iexact HS1

end Cert.Kernel.Hand

end
-- ==== Proof.KFramePieces.lean ====
/-
  What the body leaves, case by case: the pieces each run stores into the accumulators (and, at the last
  contraction tile, into the result buffers) cover those buffers, so each buffer's contents after the body is
  those pieces read back.
-/
import proofs.«173117_j45646912422244_2_alg».proof.Proof.Gen.Kernel.Frame
import proofs.«173117_j45646912422244_2_alg».proof.Proof.Gen.Kernel.Skeleton
import proofs.«173117_j45646912422244_2_alg».proof.Proof.KFrameRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a point of the first contraction tile the pieces stored into the first accumulator tile it. -/
theorem scover0_A_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) (y : S160x768.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S160x768.size (by sl_kernel_rfl) y
/-- What the first accumulator then holds: those pieces read back. -/
def sout0_A_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) : Vec F S160x768 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)
/-- The same for the second accumulator. -/
theorem scover0_A_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) (y : S480x768.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S480x768.size (by sl_kernel_rfl) y
def sout0_A_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) : Vec F S480x768 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- At a point of a middle contraction tile the pieces stored into the first accumulator tile it. -/
theorem scover0_B_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) (y : S160x768.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S160x768.size (by sl_kernel_rfl) y
/-- What the first accumulator then holds: those pieces read back. -/
def sout0_B_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) : Vec F S160x768 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)
/-- The same for the second accumulator. -/
theorem scover0_B_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) (y : S480x768.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S480x768.size (by sl_kernel_rfl) y
def sout0_B_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) : Vec F S480x768 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

/-- At a point of the last contraction tile the pieces stored into the first accumulator tile it. -/
theorem scover0_C_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) (y : S160x768.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S160x768.size (by sl_kernel_rfl) y
/-- What the first accumulator then holds: those pieces read back. -/
def sout0_C_0 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) : Vec F S160x768 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)
/-- The same for the second accumulator. -/
theorem scover0_C_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) (y : S480x768.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S480x768.size (by sl_kernel_rfl) y
def sout0_C_1 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) : Vec F S480x768 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-- At a point of the last contraction tile the pieces stored into the first result buffer tile it. -/
theorem cover0_C_3 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) (y : S160x768.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S160x768.size (by sl_kernel_rfl) y
/-- What the first result buffer then holds. -/
def out0_C_3 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) : Vec F S160x768 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)
theorem cover0_C_4 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) (y : S480x768.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S480x768.size (by sl_kernel_rfl) y
/-- What the second result buffer then holds. -/
def out0_C_4 (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) : Vec F S480x768 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- A result buffer where the body stores nothing: contents nothing consults (the window rests there and is
    neither written back nor read at the next point). -/
def rest3 : Vec F S160x768 .f32 := VO0_3.read (Elt F) VO0_3.junk
def rest4 : Vec F S480x768 .f32 := VO0_4.read (Elt F) VO0_4.junk

end Cert.Kernel.Hand

end
-- ==== Proof.KFrameData.lean ====
/-
  The proof data of the one pipeline and its body obligation.  After the body at point `n` the two
  accumulators hold: at a first contraction tile, that tile's products over zero; at a later tile, what the
  point before left plus that tile's products; and at a last tile the two result buffers hold the
  accumulators.  The region's invariant carries the accumulators from point to point.
-/
import proofs.«173117_j45646912422244_2_alg».proof.Proof.Gen.Kernel.Frame
import proofs.«173117_j45646912422244_2_alg».proof.Proof.Gen.Kernel.Skeleton
import proofs.«173117_j45646912422244_2_alg».proof.Proof.KFramePieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result buffers and the accumulators hold after each point -/

/-- After the body at point `n`: the two result buffers, then the two accumulators. -/
def outsAt0 (c : Dev nD) : (n : ℕ) → n < cfg0.N → Vec F S160x768 .f32 × Vec F S480x768 .f32 × Vec F S160x768 .f32 × Vec F S480x768 .f32
  | 0, hn => (rest3, rest4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by (try dsimp only); omega)) (inblk m c 0 ⟨0, hn⟩) (inblk m c 1 ⟨0, hn⟩) (inblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by (try dsimp only); omega)) (inblk m c 0 ⟨0, hn⟩) (inblk m c 1 ⟨0, hn⟩) (inblk m c 2 ⟨0, hn⟩))
  | n + 1, hn =>
    if h0 : (n + 1) % 15 = 0 then
      (rest3, rest4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => absurd ((hcond0_1 ⟨n + 1, hn⟩).mp h) (by (try dsimp only); omega)) (inblk m c 0 ⟨n + 1, hn⟩) (inblk m c 1 ⟨n + 1, hn⟩) (inblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => absurd ((hcond0_1 ⟨n + 1, hn⟩).mp h) (by (try dsimp only); omega)) (inblk m c 0 ⟨n + 1, hn⟩) (inblk m c 1 ⟨n + 1, hn⟩) (inblk m c 2 ⟨n + 1, hn⟩))
    else
      if h1 : (n + 1) % 15 = 14 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2)
      else
        (rest3, rest4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (inblk m c 0 ⟨n + 1, hn⟩) (inblk m c 1 ⟨n + 1, hn⟩) (inblk m c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 15 = 0) (h1 : ¬t.val % 15 = 14) :
    outsAt0 m c t.val t.isLt = (rest3, rest4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (inblk m c 0 t) (inblk m c 1 t) (inblk m c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (inblk m c 0 t) (inblk m c 1 t) (inblk m c 2 t)) := by
  obtain ⟨n, hn⟩ := t
  cases n with
  | zero => exact rfl
  | succ n => exact (dif_pos h0).trans rfl

theorem outsAt0_B (c : Dev nD) (t : Fin cfg0.N) (h0 : ¬t.val % 15 = 0) (h1 : ¬t.val % 15 = 14) :
    outsAt0 m c t.val t.isLt = (rest3, rest4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 15 = 0) (h1 : t.val % 15 = 14) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (inblk m c 0 t) (inblk m c 1 t) (inblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the two accumulators at anything;
    afterwards each at what the point before left in it; and the random-number register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body each argument window's buffer at its block, the result
    buffers at `outsAt0`'s first two components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inblk m c 0 t
    | ⟨1, _⟩ => inblk m c 1 t
    | ⟨2, _⟩ => inblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = inblk m c 0 t := by dsimp only [dats]
theorem after0_1 (c : Dev nD) (t : Fin cfg0.N) : (dats m 0 c).after 1 t = inblk m c 1 t := by dsimp only [dats]
theorem after0_2 (c : Dev nD) (t : Fin cfg0.N) : (dats m 0 c).after 2 t = inblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = inblk m c 0 t :=
  before_in_of m (dats m 0 c) 0 (A_eq m c 0) fetch0_0 noclip0_0 t d
theorem before0_1 (c : Dev nD) (t : Fin cfg0.N) (d) : (dats m 0 c).before 1 t d = inblk m c 1 t :=
  before_in_of m (dats m 0 c) 1 (A_eq m c 1) fetch0_1 noclip0_1 t d
theorem before0_2 (c : Dev nD) (t : Fin cfg0.N) (d) : (dats m 0 c).before 2 t d = inblk m c 2 t :=
  before_in_of m (dats m 0 c) 2 (A_eq m c 2) fetch0_2 noclip0_2 t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) :
    (dats m 0 c).leavesExact 0 t = owns (c : Thread nD τ) (ms0_0 t) fullShare (inblk m c 0 t) := by
  rw [show (dats m 0 c).leavesExact 0 t = owns (c : Thread nD τ) (ms0_0 t) fullShare ((dats m 0 c).after 0 t) from by
    unfold Dat.leavesExact; rw [liveAt0_0 t], after0_0]
theorem leaves_in1 (c : Dev nD) (t : Fin cfg0.N) :
    (dats m 0 c).leavesExact 1 t = owns (c : Thread nD τ) (ms0_1 t) fullShare (inblk m c 1 t) := by
  rw [show (dats m 0 c).leavesExact 1 t = owns (c : Thread nD τ) (ms0_1 t) fullShare ((dats m 0 c).after 1 t) from by
    unfold Dat.leavesExact; rw [liveAt0_1 t], after0_1]
theorem leaves_in2 (c : Dev nD) (t : Fin cfg0.N) :
    (dats m 0 c).leavesExact 2 t = owns (c : Thread nD τ) (ms0_2 t) fullShare (inblk m c 2 t) := by
  rw [show (dats m 0 c).leavesExact 2 t = owns (c : Thread nD τ) (ms0_2 t) fullShare ((dats m 0 c).after 2 t) from by
    unfold Dat.leavesExact; rw [liveAt0_2 t], after0_2]

set_option maxHeartbeats 8000000 in
/-- The body at any point: the argument buffers hold their blocks; the point's number modulo fifteen says
    which case it is in; the invariant hands the accumulators over at what the point before left (at anything
    before the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have hN : t.val < 30 := lt_of_lt_of_eq t.isLt (show cfg0.N = 30 from N_0)
  by_cases h0 : t.val % 15 = 0
  · have h1 : ¬t.val % 15 = 14 := by omega
    rw [Dat.leavesExact_idle (dats m 0 c) 3 t (idleAt0_3 t (fun h => h1 ((hcond0_1 t).mp h))) (noFlush0_3 t (fun h => h1 ((hcond0_1 t).mp h)))]
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (inblk m c 0 t) (inblk m c 1 t) (inblk m c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (inblk m c 0 t) (inblk m c 1 t) (inblk m c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 15 = 14
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_3 out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (inblk m c 0 t) (inblk m c 1 t) (inblk m c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      · unfold owns; iexists _; isplitr
        swap; · iexact H4
        ipureintro; exact View.read_writes_of_cover _ _ _ _ _ (cover0_C_4 c _ _ _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (inblk m c 0 t) (inblk m c 1 t) (inblk m c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 30 := N_0; omega)

/-! ## The run and the frame -/

set_option backward.isDefEq.respectTransparency.types false in
/-- Every weakly fair execution of the program terminates, and every final state has each array of the
    pipeline at what the library computes from the proof data and every other unscoped buffer as the host
    operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := A_eq m) (hin := hin m) (hout := hout m)

/-- The frame: the program runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.Frames.lean ====
/-
  The two kernel programs' frames: each runs to the end, faults nowhere and leaves its three arguments
  unchanged, from any launch memory — the precondition is not used.
-/
import proofs.«173117_j45646912422244_2_alg».proof.Defs
import proofs.«173117_j45646912422244_2_alg».proof.Proof.FrameData
import proofs.«173117_j45646912422244_2_alg».proof.Proof.KFrameData
import proofs.«173117_j45646912422244_2_alg».proof.Proof.Gen.Pre_finite_inputs

noncomputable section

namespace Cert.Bridge

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

end Cert.Bridge

end
-- ==== Proof.Spec.lean ====
import proofs.«173117_j45646912422244_2_alg».proof.KernelIdeal
import Idealize.ShloMosaic.PureOps.Ideal
import Idealize.ShloMosaic.Lib.ValueIdx

/-!
The contraction axis of the encoder product has 21168 positions.  The kernel walks its first
21120 = 15 · 1408 positions in fifteen tiles of 1408 and leaves the last 48 to a separate small
product; of the 1600 feature columns it produces the first 1536 = 2 · 768 and leaves the last 64 to
another separate product.  The two index maps below name a position inside a tile and a column of
the first 1536 as positions of the whole axes.
-/

noncomputable section

namespace Cert.Bridge

/-- Position `j` of contraction tile `k`, as a position of the whole contraction axis. -/
def kcol (k : Fin 15) (j : Fin 1408) : Fin 21168 := ⟨k.val * 1408 + j.val, by omega⟩

/-- One of the first 1536 feature columns, as a column of all 1600. -/
def ncol (n : Fin 1536) : Fin 1600 := ⟨n.val, by omega⟩

/-- Column `l` of feature tile `g` (two tiles of 768), among the first 1536 columns. -/
def gcol (g : Fin 2) (l : Fin 768) : Fin 1536 := ⟨g.val * 768 + l.val, by omega⟩

@[simp] theorem kcol_val (k : Fin 15) (j : Fin 1408) : (kcol k j).val = k.val * 1408 + j.val := rfl
@[simp] theorem ncol_val (n : Fin 1536) : (ncol n).val = n.val := rfl
@[simp] theorem gcol_val (g : Fin 2) (l : Fin 768) : (gcol g l).val = g.val * 768 + l.val := rfl

section Features

open Idealize.ShloMosaic Cert.KernelIdeal

variable [Cert.KernelIdeal.Facts]
open Cert.KernelIdeal.Facts₀ Cert.KernelIdeal.Facts

/-- The support batch `[32, 5, 3, 84, 84]` flattened to one row per image, `[160, 21168]`. -/
def Sflat (a0 : FVec Ideal S32x5x3x84x84 .f32) : FVec Ideal S160x21168 .f32 :=
  shapeCast S160x21168 a0 shapeCasts_S32x5x3x84x84_S160x21168

/-- The query batch `[32, 15, 3, 84, 84]` flattened to one row per image, `[480, 21168]`. -/
def Qflat (a1 : FVec Ideal S32x15x3x84x84 .f32) : FVec Ideal S480x21168 .f32 :=
  shapeCast S480x21168 a1 shapeCasts_S32x15x3x84x84_S480x21168

/-- The support features as the kernel's program assembles them from the kernel's result `o3`
    (the first 1536 columns summed over the first 21120 contraction positions): the last 48
    positions are added by a small product, and the last 64 columns are a product of their own,
    joined on the right.  `S` is the flattened support batch, `W` the weights. -/
def SFeatK (S : FVec Ideal S160x21168 .f32) (W : FVec Ideal S21168x1600 .f32) (o3 : FVec Ideal S160x1536 .f32) :
    FVec Ideal S160x1600 .f32 :=
  concatenate S160x1600 1
    [⟨S160x1536, addf o3 (Host.dotGeneral (F := Ideal) dot_S160x48_S48x1536_S160x1536_1_0_0_1_n_n (some .fp32)
        (extractStridedSlice S160x48 ![0, 21120] S slices_S160x21168_S160x48_0_21120)
        (extractStridedSlice S48x1536 ![21120, 0] W slices_S21168x1600_S48x1536_21120_0))⟩,
     ⟨S160x64, Host.dotGeneral (F := Ideal) dot_S160x21168_S21168x64_S160x64_1_0_0_1_n_n (some .fp32) S
        (extractStridedSlice S21168x64 ![0, 1536] W slices_S21168x1600_S21168x64_0_1536)⟩]
    concatenates_S160x1536_S160x64_S160x1600_d1

/-- The query features, assembled the same way from the kernel's second result `o4`. -/
def XqK (Q : FVec Ideal S480x21168 .f32) (W : FVec Ideal S21168x1600 .f32) (o4 : FVec Ideal S480x1536 .f32) :
    FVec Ideal S480x1600 .f32 :=
  concatenate S480x1600 1
    [⟨S480x1536, addf o4 (Host.dotGeneral (F := Ideal) dot_S480x48_S48x1536_S480x1536_1_0_0_1_n_n (some .fp32)
        (extractStridedSlice S480x48 ![0, 21120] Q slices_S480x21168_S480x48_0_21120)
        (extractStridedSlice S48x1536 ![21120, 0] W slices_S21168x1600_S48x1536_21120_0))⟩,
     ⟨S480x64, Host.dotGeneral (F := Ideal) dot_S480x21168_S21168x64_S480x64_1_0_0_1_n_n (some .fp32) Q
        (extractStridedSlice S21168x64 ![0, 1536] W slices_S21168x1600_S21168x64_0_1536)⟩]
    concatenates_S480x1536_S480x64_S480x1600_d1

end Features

end Cert.Bridge

end
-- ==== Proof.LibTypedRefs.lean ====
/-
  Typed references of an inlined host function: a value moved to the buffer's own type and back is itself.

  A host function that was outlined (max(·, 0), log-softmax, …) is written over references that carry the type of the
  tensor they hold.  Each of its operations writes its result through the transport from the tensor's type to the
  buffer's type and reads each operand through the transport back, both along the equation "the buffer's type is the
  tensor's type".  When such a stretch of operations is read back as one composed term, every intermediate value is left
  wrapped in the pair: back ∘ there.  The pair is the identity for ANY typed reference (destruct the reference and
  substitute its equation), so it can be rewritten away without knowing the references.  What then remains is at most
  one transport per buffer that an operation outside the function wrote and one at the function's result, each the
  identity by computation at its literal reference over a variable value.  On a deep body (log-softmax is fifteen
  operations) removing the pairs first keeps the comparison of the composed term with its closed form a comparison of
  syntax, where leaving them in makes it unfold the operations themselves at their full extents.
-/
import Idealize.ShloMosaic.Lib.StableHlo

namespace Cert.Lib.TypedRefs

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, h2, h3⟩ := x
  subst h
  rfl

/-- To the tensor's type and back. -/
theorem toBuf_ofBuf (x : TRef sig T) (v : x.ref.ty.Contents Val) : x.toBuf (x.ofBuf v) = v := by
  obtain ⟨r, h, h2, h3⟩ := x
  subst h
  rfl

end Cert.Lib.TypedRefs
-- ==== Proof.HostTail.lean ====
import proofs.«173117_j45646912422244_2_alg».proof.Proof.Spec
import proofs.«173117_j45646912422244_2_alg».proof.Proof.RefRun
import proofs.«173117_j45646912422244_2_alg».proof.Proof.LibTypedRefs
import proofs.«173117_j45646912422244_2_alg».proof.Proof.Gen.KernelIdeal
import proofs.«173117_j45646912422244_2_alg».proof.Proof.Gen.KernelIdeal.Frame
import proofs.«173117_j45646912422244_2_alg».proof.Proof.Gen.ReferenceIdeal
import Idealize.ShloMosaic.Lib.Pipeline.FrameSuffix
import Idealize.ShloMosaic.Lib.StableHlo.Run

/-!
Both programs end with the same computation on the support features `s_feat` (one row of 1600 per support
image, 160 rows) and the query features `x_q` (480 rows):

* the class prototypes: the 160 support rows are 32 classes of 5 shots, and a prototype is the mean of a
  class's five rows (the sum over the shot axis divided by 5);
* every query row and every prototype is divided by its Euclidean norm, the norm clamped below at 1e-8;
* the logits are the products of the normalised query rows with the normalised prototypes (a 480 × 32 array);
* each row of logits goes through log-softmax: the row's maximum is subtracted, and from the result the
  logarithm of the sum of its exponentials.

The computation is named here once, as one function `Tail` of the two feature arrays, and each program's
result is shown to be `Tail` of that program's features.  Nothing about `Tail` beyond its being the same
function on both sides is used: the two programs differ only in how they compute the features.
-/

noncomputable section

namespace Cert.Bridge

section TailDef

open Idealize.ShloMosaic Cert.KernelIdeal

variable [Cert.KernelIdeal.Facts]
open Cert.KernelIdeal.Facts₀ Cert.KernelIdeal.Facts

/-- The class prototypes: the support rows regrouped as 32 classes of 5 shots, summed over the shots and
    divided by 5. -/
def Proto (sfeat : FVec Ideal S160x1600 .f32) : FVec Ideal S32x1600 .f32 :=
  Host.divf (F := Ideal)
    (Host.reduceAdd (F := Ideal) (shapeCast S32x5x1600 sfeat shapeCasts_S160x1600_S32x5x1600)
      (constant (F := Ideal) S_ .f32 0x00000000#32) reducesTo_S32x5x1600_S32x1600_d1 h_S_)
    (broadcastInDim S32x1600 ![] bcast_S_S32x1600 (constant (F := Ideal) S_ .f32 0x40A00000#32))

/-- The Euclidean norm of each of the 480 query rows, as a column: the square root of the row's sum of squares. -/
def RowNormQ (x : FVec Ideal S480x1600 .f32) : FVec Ideal S480x1 .f32 :=
  Host.sqrt (F := Ideal) (broadcastInDim S480x1 ![0] bcast_S480_S480x1_0
    (Host.reduceAdd (F := Ideal) (mulf x x) (constant (F := Ideal) S_ .f32 0x00000000#32) reducesTo_S480x1600_S480_d1 h_S_))

/-- The query rows divided by their norms, each norm clamped below at the literal 1e-8. -/
def UnitQ (x : FVec Ideal S480x1600 .f32) : FVec Ideal S480x1600 .f32 :=
  Host.divf (F := Ideal) x (broadcastInDim S480x1600 ![0, 1] bcast_S480x1_S480x1600_0_1
    (maximumf (RowNormQ x) (broadcastInDim S480x1 ![] bcast_S_S480x1 (constant (F := Ideal) S_ .f32 0x322BCC77#32))))

/-- The Euclidean norm of each of the 32 prototypes, as a column. -/
def RowNormP (p : FVec Ideal S32x1600 .f32) : FVec Ideal S32x1 .f32 :=
  Host.sqrt (F := Ideal) (broadcastInDim S32x1 ![0] bcast_S32_S32x1_0
    (Host.reduceAdd (F := Ideal) (mulf p p) (constant (F := Ideal) S_ .f32 0x00000000#32) reducesTo_S32x1600_S32_d1 h_S_))

/-- The prototypes divided by their norms, each norm clamped below at the literal 1e-8. -/
def UnitP (p : FVec Ideal S32x1600 .f32) : FVec Ideal S32x1600 .f32 :=
  Host.divf (F := Ideal) p (broadcastInDim S32x1600 ![0, 1] bcast_S32x1_S32x1600_0_1
    (maximumf (RowNormP p) (broadcastInDim S32x1 ![] bcast_S_S32x1 (constant (F := Ideal) S_ .f32 0x322BCC77#32))))

/-- The logits: normalised query rows times normalised prototypes, one entry per query and class. -/
def Logits (sfeat : FVec Ideal S160x1600 .f32) (xq : FVec Ideal S480x1600 .f32) : FVec Ideal S480x32 .f32 :=
  Host.dotGeneral (F := Ideal) dot_S480x1600_S1600x32_S480x32_1_0_0_1_n_n none (UnitQ xq)
    (transpose S1600x32 [1, 0] (UnitP (Proto sfeat)) transposes_S32x1600_S1600x32_1_0)

/-- A row of logits minus the row's maximum (the maximum taken from minus infinity). -/
def Shifted (z : FVec Ideal S480x32 .f32) : FVec Ideal S480x32 .f32 :=
  subf z (broadcastInDim S480x32 ![0, 1] bcast_S480x1_S480x32_0_1 (broadcastInDim S480x1 ![0] bcast_S480_S480x1_0
    (maximumf (broadcastInDim S480 ![] bcast_S_S480 (constant (F := Ideal) S_ .f32 0xFF800000#32))
      (Host.reduce (FloatOps.maximumf (F := Ideal)) z (constant (F := Ideal) S_ .f32 0xFF800000#32) reducesTo_S480x32_S480_d1 h_S_))))

/-- Log-softmax of each row: the shifted row minus the logarithm of the sum of its exponentials. -/
def LogSoftmax (z : FVec Ideal S480x32 .f32) : FVec Ideal S480x32 .f32 :=
  subf (Shifted z) (broadcastInDim S480x32 ![0, 1] bcast_S480x1_S480x32_0_1
    (Host.log (F := Ideal) (broadcastInDim S480x1 ![0] bcast_S480_S480x1_0
      (Host.reduceAdd (F := Ideal) (Host.exp (F := Ideal) (Shifted z)) (constant (F := Ideal) S_ .f32 0x00000000#32) reducesTo_S480x32_S480_d1 h_S_))))

/-- What both programs compute from the support features and the query features: the log-softmax of the
    cosine logits against the class prototypes. -/
def Tail (sfeat : FVec Ideal S160x1600 .f32) (xq : FVec Ideal S480x1600 .f32) : FVec Ideal S480x32 .f32 :=
  LogSoftmax (Logits sfeat xq)

end TailDef

section Reference

open Idealize.ShloMosaic Idealize.ShloMosaic.TcCoe Idealize.SL.Sem

/-- The reference's result is the common tail of its two whole products. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v20 (F := Ideal) m' c
      = Tail (Host.dotGeneral (F := Ideal) (φ₂ := .f32) Cert.ReferenceIdeal.dot_S160x21168_S21168x1600_S160x1600_1_0_0_1_n_n none (Sflat (m' ((c.tc : Thread _ _).loc Cert.ReferenceIdeal.main_arg0))) (m' ((c.tc : Thread _ _).loc Cert.ReferenceIdeal.main_arg2)))
             (Host.dotGeneral (F := Ideal) (φ₂ := .f32) Cert.ReferenceIdeal.dot_S480x21168_S21168x1600_S480x1600_1_0_0_1_n_n none (Qflat (m' ((c.tc : Thread _ _).loc Cert.ReferenceIdeal.main_arg1))) (m' ((c.tc : Thread _ _).loc Cert.ReferenceIdeal.main_arg2))) := by
  unfold Cert.ReferenceIdeal.ValueP.res_main_v20
  rfl

end Reference

section Kernel

open Idealize.ShloMosaic Idealize.ShloMosaic.TcCoe Idealize.SL.Sem Idealize.ShloMosaic.StableHlo
open Cert.KernelIdeal Cert.KernelIdeal.Gen

/-- A value read or written at a literal reference whose buffer type is the value's type is carried by the identity. -/
theorem ofBuf_main_v14 (w : (⟨S480x1600, .f32⟩ : BufTy).Contents (Elt Ideal)) : (TRef.of (T := ⟨S480x1600, .f32⟩) main_v14 : TRef sig _).ofBuf w = w := rfl
theorem toBuf_main_v19 (w : (⟨S480x1, .f32⟩ : BufTy).Contents (Elt Ideal)) : (TRef.of (T := ⟨S480x1, .f32⟩) main_v19 : TRef sig _).toBuf w = w := rfl
theorem ofBuf_main_v18 (w : (⟨S32x1600, .f32⟩ : BufTy).Contents (Elt Ideal)) : (TRef.of (T := ⟨S32x1600, .f32⟩) main_v18 : TRef sig _).ofBuf w = w := rfl
theorem toBuf_main_v24 (w : (⟨S32x1, .f32⟩ : BufTy).Contents (Elt Ideal)) : (TRef.of (T := ⟨S32x1, .f32⟩) main_v24 : TRef sig _).toBuf w = w := rfl
theorem ofBuf_main_v30 (w : (⟨S480x32, .f32⟩ : BufTy).Contents (Elt Ideal)) : (TRef.of (T := ⟨S480x32, .f32⟩) main_v30 : TRef sig _).ofBuf w = w := rfl
theorem toBuf_main_v31 (w : (⟨S480x32, .f32⟩ : BufTy).Contents (Elt Ideal)) : (TRef.of (T := ⟨S480x32, .f32⟩) main_v31 : TRef sig _).toBuf w = w := rfl

set_option maxRecDepth 8192 in
set_option maxHeartbeats 2000000 in
/-- The kernel program's host operations after the kernel, run from any buffer contents `W`: the result buffer ends
    at the common tail of the two feature arrays assembled from `W`'s flattened batches, weights and kernel results. -/
theorem tail_after (W : Valuation τ sig (Elt Ideal)) :
    StableHlo.after (List.flatten [hostOps1 (F := Ideal), hostOps1_1, hostOps1_2, hostOps1_3, hostOps1_4, hostOps1_5]) W (Proc.devRef .tc main_v31)
      = Tail (SFeatK (W (Proc.devRef .tc main_v0)) (W (Proc.devRef .tc main_arg2)) (W (Proc.devRef .tc main_v2_0)))
             (XqK (W (Proc.devRef .tc main_v1)) (W (Proc.devRef .tc main_arg2)) (W (Proc.devRef .tc main_v2_1))) := by
  simp only [hostOps1, hostOps1_1, hostOps1_2, hostOps1_3, hostOps1_4, hostOps1_5, List.flatten_cons, List.flatten_nil,
    List.append_nil, List.cons_append, List.nil_append]
  after_results_simp
  simp only [Cert.Lib.TypedRefs.ofBuf_toBuf, ofBuf_main_v14, toBuf_main_v19, ofBuf_main_v18, toBuf_main_v24, ofBuf_main_v30, toBuf_main_v31]
  rfl

end Kernel

section KernelResult

open Idealize.ShloMosaic Idealize.ShloMosaic.TcCoe Idealize.SL.Sem Idealize.ShloMosaic.StableHlo
open Cert.KernelIdeal Cert.KernelIdeal.Gen

variable (m : (ℓ : Loc Cert.KernelIdeal.nD Cert.KernelIdeal.τ Cert.KernelIdeal.sig) → Buf (Elt Ideal) ℓ)

/-- When the kernel is entered, the array of its first window holds the flattened support batch. -/
theorem V_main_v0 (c : Dev nD) : Gen.V m c main_v0 = Sflat (m ((c.tc : Thread _ _).loc main_arg0)) := by
  dsimp only [Gen.V, Gen.V0]
  simp only [Gen.hostOps0, List.flatten_cons, List.flatten_nil, List.append_nil]
  after_results
  rfl

/-- And the array of its second window holds the flattened query batch. -/
theorem V_main_v1 (c : Dev nD) : Gen.V m c main_v1 = Qflat (m ((c.tc : Thread _ _).loc main_arg1)) := by
  dsimp only [Gen.V, Gen.V0]
  simp only [Gen.hostOps0, List.flatten_cons, List.flatten_nil, List.append_nil]
  after_results
  rfl

/-- The common tail of the kernel program's features depends only on the five arrays they are assembled from. -/
theorem tail_congr {S S' : FVec Ideal S160x21168 .f32} {Q Q' : FVec Ideal S480x21168 .f32} {W W' : FVec Ideal S21168x1600 .f32}
    {o3 o3' : FVec Ideal S160x1536 .f32} {o4 o4' : FVec Ideal S480x1536 .f32}
    (hS : S = S') (hQ : Q = Q') (hW : W = W') (h3 : o3 = o3') (h4 : o4 = o4') :
    Tail (SFeatK S W o3) (XqK Q W o4) = Tail (SFeatK S' W' o3') (XqK Q' W' o4') := by
  subst hS hQ hW h3 h4; rfl

/-- The kernel program's result is the common tail of the features it assembles: the kernel's two results with the last
    48 contraction positions added, joined with the products for the last 64 columns. -/
theorem ker_result
    (dats : (p : Fin 1) → (c : Dev Cert.KernelIdeal.nD) → Pipeline.Dat Cert.KernelIdeal.τ (Elt Ideal) Unit ℕ (UR Cert.KernelIdeal.sig Cert.KernelIdeal.nD Cert.KernelIdeal.τ) ℕ (Cert.KernelIdeal.cfgs p) c)
    (hA : ∀ c w, (dats 0 c).A w = Cert.KernelIdeal.Gen.V m c (Pipeline.arrRef Cert.KernelIdeal.spec0 w)) (c : Dev Cert.KernelIdeal.nD) :
    Pipeline.afterTail₀ Cert.KernelIdeal.cfgs dats 0 (Cert.KernelIdeal.Gen.V0 m) [hostOps1, hostOps1_1, hostOps1_2, hostOps1_3, hostOps1_4, hostOps1_5] c Cert.KernelIdeal.main_v31
      = Tail (SFeatK (Sflat (m ((c.tc : Thread _ _).loc Cert.KernelIdeal.main_arg0))) (m ((c.tc : Thread _ _).loc Cert.KernelIdeal.main_arg2)) ((dats 0 c).arrAt 3 Cert.KernelIdeal.cfg0.N))
             (XqK (Qflat (m ((c.tc : Thread _ _).loc Cert.KernelIdeal.main_arg1))) (m ((c.tc : Thread _ _).loc Cert.KernelIdeal.main_arg2)) ((dats 0 c).arrAt 4 Cert.KernelIdeal.cfg0.N)) := by
  unfold Pipeline.afterTail₀
  refine (tail_after _).trans ?_
  exact tail_congr
    ((Pipeline.withArrays_arr spec0 Gen.launch0.win.arr_inj c _ _ 0).trans (((dats 0 c).arrAt_in 0 rfl _).trans ((hA c 0).trans (V_main_v0 m c))))
    ((Pipeline.withArrays_arr spec0 Gen.launch0.win.arr_inj c _ _ 1).trans (((dats 0 c).arrAt_in 1 rfl _).trans ((hA c 1).trans (V_main_v1 m c))))
    ((Pipeline.withArrays_arr spec0 Gen.launch0.win.arr_inj c _ _ 2).trans (((dats 0 c).arrAt_in 2 rfl _).trans ((hA c 2).trans (Gen.V_main_arg2 m c))))
    (Pipeline.withArrays_arr spec0 Gen.launch0.win.arr_inj c _ _ 3)
    (Pipeline.withArrays_arr spec0 Gen.launch0.win.arr_inj c _ _ 4)

end KernelResult

end Cert.Bridge

end
-- ==== Proof.Claims.lean ====
import proofs.«173117_j45646912422244_2_alg».proof.Defs
import proofs.«173117_j45646912422244_2_alg».proof.Proof.HostTail
import proofs.«173117_j45646912422244_2_alg».proof.Proof.Gen.Pre_finite_inputs

/-!
The claims that need nothing of the kernel's own run.

The reference is a straight line of host operations: its run ends with the arguments as launched, which is its
frame claim.  The kernel program's text was not rewritten by the idealization, so there is nothing to preserve.

For the claim that the two programs agree, both results are the same function `Tail` of two feature arrays.  The
reference's features are the whole products of the flattened batches with the weights; once the kernel program's run
is known to end at `Tail` of those same two products of ITS arguments, the claim follows, because the two programs
are started from equal arguments.
-/

noncomputable section

namespace Cert.Bridge

open Idealize.ShloMosaic Idealize.ShloMosaic.TcCoe Idealize.SL.Sem

/-- The reference runs and leaves its arguments as launched. -/
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel program is the kernel program's own text: no operation was rewritten. -/
theorem preserves : Cert.preserves_Kernel_KernelIdeal := trivial

section Agree

open Cert.KernelIdeal

/-- The common tail of the two whole products depends only on the three argument arrays. -/
theorem whole_congr {a0 a0' : FVec Ideal S32x5x3x84x84 .f32} {a1 a1' : FVec Ideal S32x15x3x84x84 .f32} {w w' : FVec Ideal S21168x1600 .f32}
    (h0 : a0 = a0') (h1 : a1 = a1') (h2 : w = w') :
    Tail (Host.dotGeneral (F := Ideal) (φ₂ := .f32) Cert.ReferenceIdeal.dot_S160x21168_S21168x1600_S160x1600_1_0_0_1_n_n none (Sflat a0) w) (Host.dotGeneral (F := Ideal) (φ₂ := .f32) Cert.ReferenceIdeal.dot_S480x21168_S21168x1600_S480x1600_1_0_0_1_n_n none (Qflat a1) w)
      = Tail (Host.dotGeneral (F := Ideal) (φ₂ := .f32) Cert.ReferenceIdeal.dot_S160x21168_S21168x1600_S160x1600_1_0_0_1_n_n none (Sflat a0') w') (Host.dotGeneral (F := Ideal) (φ₂ := .f32) Cert.ReferenceIdeal.dot_S480x21168_S21168x1600_S480x1600_1_0_0_1_n_n none (Qflat a1') w') := by
  subst h0 h1 h2; rfl

end Agree

/-- The two programs agree, given that the kernel program's run ends at the common tail of the whole products of its
    own arguments: the reference's run ends at the common tail of the whole products of ITS arguments, and the
    arguments are equal. -/
theorem algebraic_of_kernel_run
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (hk : θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v31)
          = Tail (Host.dotGeneral (F := Ideal) (φ₂ := .f32) Cert.ReferenceIdeal.dot_S160x21168_S21168x1600_S160x1600_1_0_0_1_n_n none (Sflat (m ((c.tc : Thread Cert.KernelIdeal.nD Cert.KernelIdeal.τ).loc Cert.KernelIdeal.main_arg0))) (m ((c.tc : Thread Cert.KernelIdeal.nD Cert.KernelIdeal.τ).loc Cert.KernelIdeal.main_arg2)))
                 (Host.dotGeneral (F := Ideal) (φ₂ := .f32) Cert.ReferenceIdeal.dot_S480x21168_S21168x1600_S480x1600_1_0_0_1_n_n none (Qflat (m ((c.tc : Thread Cert.KernelIdeal.nD Cert.KernelIdeal.τ).loc Cert.KernelIdeal.main_arg1))) (m ((c.tc : Thread Cert.KernelIdeal.nD Cert.KernelIdeal.τ).loc Cert.KernelIdeal.main_arg2)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))) :
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine ⟨fun c => Tail (Host.dotGeneral (F := Ideal) (φ₂ := .f32) Cert.ReferenceIdeal.dot_S160x21168_S21168x1600_S160x1600_1_0_0_1_n_n none (Sflat (m ((c.tc : Thread Cert.KernelIdeal.nD Cert.KernelIdeal.τ).loc Cert.KernelIdeal.main_arg0))) (m ((c.tc : Thread Cert.KernelIdeal.nD Cert.KernelIdeal.τ).loc Cert.KernelIdeal.main_arg2)))
                 (Host.dotGeneral (F := Ideal) (φ₂ := .f32) Cert.ReferenceIdeal.dot_S480x21168_S21168x1600_S480x1600_1_0_0_1_n_n none (Qflat (m ((c.tc : Thread Cert.KernelIdeal.nD Cert.KernelIdeal.τ).loc Cert.KernelIdeal.main_arg1))) (m ((c.tc : Thread Cert.KernelIdeal.nD Cert.KernelIdeal.τ).loc Cert.KernelIdeal.main_arg2))), hk, ?_⟩
  refine (θ_run Cert.ReferenceIdeal.defs _ _).mono (fun _ h c => ⟨(h c).1.trans ?_, (h c).2⟩) (Cert.ReferenceIdeal.ValueP.run (F := Ideal) m' g')
  exact (ref_result m' c).trans (whole_congr (hagree c).1 (hagree c).2.1 (hagree c).2.2)

/-- The same as the claim itself: it is enough to give the kernel program's run for every launch memory that meets the
    precondition. -/
theorem algebraic_of_kernel_runs
    (hk : ∀ (m : (ℓ : Loc Cert.KernelIdeal.nD Cert.KernelIdeal.τ Cert.KernelIdeal.sig) → Buf (Elt Ideal) ℓ) (g : Dev Cert.KernelIdeal.nD → PrngReg), Cert.Pre_KernelIdeal m →
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v31)
          = Tail (Host.dotGeneral (F := Ideal) (φ₂ := .f32) Cert.ReferenceIdeal.dot_S160x21168_S21168x1600_S160x1600_1_0_0_1_n_n none (Sflat (m ((c.tc : Thread Cert.KernelIdeal.nD Cert.KernelIdeal.τ).loc Cert.KernelIdeal.main_arg0))) (m ((c.tc : Thread Cert.KernelIdeal.nD Cert.KernelIdeal.τ).loc Cert.KernelIdeal.main_arg2)))
                 (Host.dotGeneral (F := Ideal) (φ₂ := .f32) Cert.ReferenceIdeal.dot_S480x21168_S21168x1600_S480x1600_1_0_0_1_n_n none (Qflat (m ((c.tc : Thread Cert.KernelIdeal.nD Cert.KernelIdeal.τ).loc Cert.KernelIdeal.main_arg1))) (m ((c.tc : Thread Cert.KernelIdeal.nD Cert.KernelIdeal.τ).loc Cert.KernelIdeal.main_arg2)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))) :
    Cert.algebraic_KernelIdeal_ReferenceIdeal :=
  fun m g m' g' hpre hagree => algebraic_of_kernel_run m g m' g' hagree (hk m g hpre)

end Cert.Bridge

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.FeatureIndex.lean ====
/-
  Three index facts used to compare the feature matrices entry by entry.

  A unit-stride slice of a matrix read at an entry is the matrix at the entry shifted by the two offsets. Two matrices
  with the same rows joined along the columns read, at column e, the left matrix at column e when e is below the left
  width and the right matrix at column e less the left width otherwise. A sum over the 21168 contraction positions is the
  sum over fifteen tiles of 1408 positions (position k * 1408 + j of tile k) plus the sum over the last 48 positions
  (position 21120 + c): addition in a commutative monoid is regrouped, nothing else is used.
-/
import Idealize.ShloMosaic.Lib.ValueIdx
import Idealize.ShloMosaic.Lib.Pipeline.Value
import proofs.«173117_j45646912422244_2_alg».proof.Proof.Spec
import proofs.«173117_j45646912422244_2_alg».proof.Proof.LibTiles

noncomputable section

open scoped BigOperators

namespace Cert.Bridge

open Idealize.ShloMosaic Idealize.ShloMosaic.ValueIdx

variable {α : Type}

/-- A unit-stride slice of an M×K matrix at offsets (o0, o1), read at (p, c), is the matrix at (o0 + p, o1 + c). -/
theorem slice2_apply {M K m k : ℕ} (o0 o1 : ℕ) (x : (⟨2, ![M, K]⟩ : Shape).Idx → α)
    (h : (⟨2, ![M, K]⟩ : Shape).Slices ![o0, o1] ⟨2, ![m, k]⟩) (p : Fin m) (c : Fin k) (p' : Fin M) (c' : Fin K)
    (hp : p'.val = o0 + p.val) (hc : c'.val = o1 + c.val) :
    extractStridedSlice ⟨2, ![m, k]⟩ ![o0, o1] x h (ix2 p c) = x (ix2 p' c') :=
  extractStridedSlice_apply ![o0, o1] x h (ix2 p c) (ix2 p' c') (fun a => by
    match a with
    | ⟨0, _⟩ => exact hp
    | ⟨1, _⟩ => exact hc)

/-- Two matrices joined along the columns, read in the left one: entry (p, e) with e below the left width. -/
theorem join_cols_left {M m n k : ℕ} (x : (⟨2, ![M, m]⟩ : Shape).Idx → α) (y : (⟨2, ![M, n]⟩ : Shape).Idx → α)
    (h : Shape.Concatenates [(⟨2, ![M, m]⟩ : Shape), ⟨2, ![M, n]⟩] ⟨2, ![M, k]⟩ (1 : Fin 2))
    (p : Fin M) (e : Fin k) (e' : Fin m) (he : e'.val = e.val) :
    concatenate ⟨2, ![M, k]⟩ (1 : Fin 2) [⟨⟨2, ![M, m]⟩, x⟩, ⟨⟨2, ![M, n]⟩, y⟩] h (ix2 p e) = x (ix2 p e') :=
  concatenate_pair_apply_left (1 : Fin 2) x y h (ix2 p e) rfl (ix2 p e') (fun bb => by
    match bb with
    | ⟨0, _⟩ => rfl
    | ⟨1, _⟩ => exact he)

/-- Two matrices joined along the columns, read in the right one: entry (p, e) with e = m + e'. -/
theorem join_cols_right {M m n k : ℕ} (x : (⟨2, ![M, m]⟩ : Shape).Idx → α) (y : (⟨2, ![M, n]⟩ : Shape).Idx → α)
    (h : Shape.Concatenates [(⟨2, ![M, m]⟩ : Shape), ⟨2, ![M, n]⟩] ⟨2, ![M, k]⟩ (1 : Fin 2))
    (p : Fin M) (e : Fin k) (e' : Fin n) (he : e'.val + m = e.val) :
    concatenate ⟨2, ![M, k]⟩ (1 : Fin 2) [⟨⟨2, ![M, m]⟩, x⟩, ⟨⟨2, ![M, n]⟩, y⟩] h (ix2 p e) = y (ix2 p e') :=
  concatenate_pair_apply_right (1 : Fin 2) x y h (ix2 p e) rfl rfl (ix2 p e') (fun bb hb => by
    match bb with
    | ⟨0, _⟩ => rfl
    | ⟨1, _⟩ => exact absurd rfl hb) (by exact he)

/-- The contraction sum over 21168 positions: fifteen tiles of 1408, then the last 48. -/
theorem sum_contraction {A : Type*} [AddCommMonoid A] (f : Fin 21168 → A) :
    ∑ c, f c = (∑ k : Fin 15, ∑ j : Fin 1408, f (kcol k j)) + ∑ c : Fin 48, f ⟨21120 + c.val, by omega⟩ := by
  have e : (15 * 1408 + 48 : ℕ) = 21168 := by norm_num
  rw [← Equiv.sum_comp (finCongr e) f, Fin.sum_univ_add, Cert.Lib.Tiles.sum_tiles 15 1408]
  refine congrArg₂ (· + ·) ?_ ?_
  · exact Finset.sum_congr rfl fun k _ => Finset.sum_congr rfl fun j _ => congrArg f (Fin.ext rfl)
  · exact Finset.sum_congr rfl fun c _ => congrArg f (Fin.ext rfl)

end Cert.Bridge

end
-- ==== Proof.FeatureSums.lean ====
/-
  The kernel's program assembles each feature matrix from three products; the reference computes it by one.

  Entry (i, n) of the reference's product is the sum over all 21168 contraction positions c of S (i, c) · W (c, n).
  For a column n among the first 1536 the assembled matrix reads the kernel's result — the sum over fifteen tiles of 1408
  positions — plus a product over the last 48 positions; for a column among the last 64 it reads a product over all 21168
  positions against those columns of W. Both are the reference's sum, regrouped: the extended reals are a commutative
  monoid under addition, and no other law is used.
-/
import proofs.«173117_j45646912422244_2_alg».proof.Proof.Spec
import proofs.«173117_j45646912422244_2_alg».proof.Proof.Gen.KernelIdeal
import proofs.«173117_j45646912422244_2_alg».proof.Proof.Gen.ReferenceIdeal
import proofs.«173117_j45646912422244_2_alg».proof.Proof.LibHostDot
import proofs.«173117_j45646912422244_2_alg».proof.Proof.FeatureIndex

noncomputable section

open scoped BigOperators

namespace Cert.Bridge

open Idealize.ShloMosaic Idealize.ShloMosaic.ValueIdx

/-- The assembly of a feature matrix with M rows equals the whole product. The three products are plain M×K by K×N
    products (contract the left operand's columns against the right operand's rows). -/
theorem feat_eq {M : ℕ} (S : FVec Ideal ⟨2, ![M, 21168]⟩ .f32) (W : FVec Ideal ⟨2, ![21168, 1600]⟩ .f32)
    (o : FVec Ideal ⟨2, ![M, 1536]⟩ .f32)
    (ho : ∀ (i : Fin M) (n : Fin 1536),
      o (ix2 i n) = ∑ k : Fin 15, ∑ j : Fin 1408, S (ix2 i (kcol k j)) * W (ix2 (kcol k j) (ncol n)))
    (hsS : (⟨2, ![M, 21168]⟩ : Shape).Slices ![0, 21120] ⟨2, ![M, 48]⟩)
    (hsW : (⟨2, ![21168, 1600]⟩ : Shape).Slices ![21120, 0] ⟨2, ![48, 1536]⟩)
    (hsR : (⟨2, ![21168, 1600]⟩ : Shape).Slices ![0, 1536] ⟨2, ![21168, 64]⟩)
    (hc : Shape.Concatenates [(⟨2, ![M, 1536]⟩ : Shape), ⟨2, ![M, 64]⟩] ⟨2, ![M, 1600]⟩ (1 : Fin 2))
    (dT : DotDims ⟨2, ![M, 48]⟩ ⟨2, ![48, 1536]⟩ ⟨2, ![M, 1536]⟩) (hdT : dT = DotDims.plain M 48 1536)
    (dR : DotDims ⟨2, ![M, 21168]⟩ ⟨2, ![21168, 64]⟩ ⟨2, ![M, 64]⟩) (hdR : dR = DotDims.plain M 21168 64)
    (dF : DotDims ⟨2, ![M, 21168]⟩ ⟨2, ![21168, 1600]⟩ ⟨2, ![M, 1600]⟩) (hdF : dF = DotDims.plain M 21168 1600)
    (p1 p2 p3 : Option ContractPrecision) :
    concatenate ⟨2, ![M, 1600]⟩ (1 : Fin 2)
      [⟨⟨2, ![M, 1536]⟩, addf o (Host.dotGeneral (F := Ideal) dT p1
          (extractStridedSlice ⟨2, ![M, 48]⟩ ![0, 21120] S hsS)
          (extractStridedSlice ⟨2, ![48, 1536]⟩ ![21120, 0] W hsW))⟩,
       ⟨⟨2, ![M, 64]⟩, Host.dotGeneral (F := Ideal) dR p2 S
          (extractStridedSlice ⟨2, ![21168, 64]⟩ ![0, 1536] W hsR)⟩] hc
      = Host.dotGeneral (F := Ideal) dF p3 S W := by
  subst hdT hdR hdF
  funext idx
  obtain ⟨i, n, rfl⟩ : ∃ (i : Fin M) (n : Fin 1600), idx = ix2 i n := ⟨idx 0, idx 1, eq_ix2 idx⟩
  refine Eq.trans ?_ (Cert.HostDot.dotGeneral_plain_apply p3 S W i n).symm
  by_cases hn : n.val < 1536
  · -- a column among the first 1536: the tiles' sum plus the product over the last 48 positions
    refine (join_cols_left _ _ hc i n ⟨n.val, hn⟩ rfl).trans ?_
    rw [addf_apply, ho, Cert.HostDot.dotGeneral_plain_apply, sum_contraction]
    refine congrArg₂ (· + ·) ?_ ?_
    · exact Finset.sum_congr rfl fun k _ => Finset.sum_congr rfl fun j _ =>
        congrArg (fun q => S (ix2 i (kcol k j)) * W (ix2 (kcol k j) q)) (Fin.ext rfl)
    · refine Finset.sum_congr rfl fun c _ => ?_
      rw [slice2_apply 0 21120 S hsS i c i ⟨21120 + c.val, by omega⟩ (Nat.zero_add _).symm rfl,
        slice2_apply 21120 0 W hsW c ⟨n.val, hn⟩ ⟨21120 + c.val, by omega⟩ n rfl (Nat.zero_add _).symm]
  · -- a column among the last 64: the product over all positions against that column of W
    have hn' : n.val - 1536 < 64 := by omega
    refine (join_cols_right _ _ hc i n ⟨n.val - 1536, hn'⟩ (by show n.val - 1536 + 1536 = n.val; omega)).trans ?_
    rw [Cert.HostDot.dotGeneral_plain_apply]
    refine Finset.sum_congr rfl fun c _ => ?_
    rw [slice2_apply 0 1536 W hsR c ⟨n.val - 1536, hn'⟩ c n (Nat.zero_add _).symm
      (by show n.val = 1536 + (n.val - 1536); omega)]

section Features

open Cert.KernelIdeal

/-- The support features assembled by the kernel's program are the reference's product of the flattened support batch
    with the weights, given that the kernel's result holds the fifteen tiles' sums for the first 1536 columns. -/
theorem sfeat_eq (S : FVec Ideal Cert.KernelIdeal.S160x21168 .f32) (W : FVec Ideal Cert.KernelIdeal.S21168x1600 .f32)
    (o3 : FVec Ideal Cert.KernelIdeal.S160x1536 .f32)
    (h3 : ∀ (i : Fin 160) (n : Fin 1536), o3 (ValueIdx.ix2 i n)
      = ∑ k : Fin 15, ∑ j : Fin 1408, S (ValueIdx.ix2 i (kcol k j)) * W (ValueIdx.ix2 (kcol k j) (ncol n))) :
    SFeatK S W o3
      = Host.dotGeneral (F := Ideal) Cert.ReferenceIdeal.dot_S160x21168_S21168x1600_S160x1600_1_0_0_1_n_n none S W :=
  feat_eq S W o3 h3 _ _ _ _ _ rfl _ rfl _ rfl _ _ _

/-- The query features, the same way. -/
theorem xq_eq (Q : FVec Ideal Cert.KernelIdeal.S480x21168 .f32) (W : FVec Ideal Cert.KernelIdeal.S21168x1600 .f32)
    (o4 : FVec Ideal Cert.KernelIdeal.S480x1536 .f32)
    (h4 : ∀ (i : Fin 480) (n : Fin 1536), o4 (ValueIdx.ix2 i n)
      = ∑ k : Fin 15, ∑ j : Fin 1408, Q (ValueIdx.ix2 i (kcol k j)) * W (ValueIdx.ix2 (kcol k j) (ncol n))) :
    XqK Q W o4
      = Host.dotGeneral (F := Ideal) Cert.ReferenceIdeal.dot_S480x21168_S21168x1600_S480x1600_1_0_0_1_n_n none Q W :=
  feat_eq Q W o4 h4 _ _ _ _ _ rfl _ rfl _ rfl _ _ _

end Features

end Cert.Bridge

end
-- ==== Proof.KernelRun.lean ====
/-
  The idealized kernel program's run with its result named: the result array is the common tail applied to
  the two whole products `S·W` and `Q·W`, given that the kernel's two result arrays hold the products over
  the first 21120 contraction positions and the first 1536 columns.
-/
import proofs.«173117_j45646912422244_2_alg».proof.Proof.FrameData
import proofs.«173117_j45646912422244_2_alg».proof.Proof.HostTail
import proofs.«173117_j45646912422244_2_alg».proof.Proof.FeatureSums

noncomputable section

namespace Cert.Bridge

open Idealize.ShloMosaic Idealize.ShloMosaic.TcCoe Idealize.SL.Sem
open Cert.KernelIdeal Cert.KernelIdeal.Gen

/-- The support features as one product: every row of the flattened support batch against the weights. -/
def SW (m : (ℓ : Loc nD τ sig) → Buf (Elt Ideal) ℓ) (c : Dev nD) : FVec Ideal S160x1600 .f32 :=
  Host.dotGeneral (F := Ideal) (φ₂ := .f32) Cert.ReferenceIdeal.dot_S160x21168_S21168x1600_S160x1600_1_0_0_1_n_n none
    (Sflat (m ((c.tc : Thread nD τ).loc main_arg0))) (m ((c.tc : Thread nD τ).loc main_arg2))

/-- The query features as one product. -/
def QW (m : (ℓ : Loc nD τ sig) → Buf (Elt Ideal) ℓ) (c : Dev nD) : FVec Ideal S480x1600 .f32 :=
  Host.dotGeneral (F := Ideal) (φ₂ := .f32) Cert.ReferenceIdeal.dot_S480x21168_S21168x1600_S480x1600_1_0_0_1_n_n none
    (Qflat (m ((c.tc : Thread nD τ).loc main_arg1))) (m ((c.tc : Thread nD τ).loc main_arg2))

/-- The kernel program's run: it terminates with the result at the tail of the two whole products and the
    arguments unchanged, once its two result arrays are known to hold the tiled partial products. -/
theorem kernel_run (m : (ℓ : Loc nD τ sig) → Buf (Elt Ideal) ℓ) (ρ : Dev nD → PrngReg)
    (hv3 : ∀ (c : Dev nD) (S : FVec Ideal S160x21168 .f32) (W : FVec Ideal S21168x1600 .f32) (o3 : FVec Ideal S160x1536 .f32),
      S = V m c main_v0 → W = V m c main_arg2 → o3 = (Cert.KernelIdeal.Hand.dats m 0 c).arrAt 3 cfg0.N →
      ∀ (i : Fin 160) (n : Fin 1536), o3 (ValueIdx.ix2 i n)
        = ∑ k : Fin 15, ∑ j : Fin 1408, S (ValueIdx.ix2 i (kcol k j)) * W (ValueIdx.ix2 (kcol k j) (ncol n)))
    (hv4 : ∀ (c : Dev nD) (Q : FVec Ideal S480x21168 .f32) (W : FVec Ideal S21168x1600 .f32) (o4 : FVec Ideal S480x1536 .f32),
      Q = V m c main_v1 → W = V m c main_arg2 → o4 = (Cert.KernelIdeal.Hand.dats m 0 c).arrAt 4 cfg0.N →
      ∀ (i : Fin 480) (n : Fin 1536), o4 (ValueIdx.ix2 i n)
        = ∑ k : Fin 15, ∑ j : Fin 1408, Q (ValueIdx.ix2 i (kcol k j)) * W (ValueIdx.ix2 (kcol k j) (ncol n))) :
    θ_run (defs (F := Ideal)) (onTc (τ := τ) (main (F := Ideal))) ⟨m, fun _ => 0, ρ⟩ (fun r => ∀ c : Dev nD,
      r.2.mem ((c.tc : Thread nD τ).loc main_v31) = Tail (SW m c) (QW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (Cert.KernelIdeal.Hand.run_main (F := Ideal) m ρ)
  · refine ((h c).2 main_v31 (Pipeline.mem_restRefs_of main_v31 (by decide) (by decide))).trans ?_
    rw [ker_result m (Cert.KernelIdeal.Hand.dats m) (Cert.KernelIdeal.Hand.A_eq m) c]
    have e3 := sfeat_eq (Sflat (m ((c.tc : Thread nD τ).loc main_arg0))) (m ((c.tc : Thread nD τ).loc main_arg2))
      ((Cert.KernelIdeal.Hand.dats m 0 c).arrAt 3 cfg0.N) (hv3 c _ _ _ (V_main_v0 m c).symm (V_main_arg2 m c).symm rfl)
    have e4 := xq_eq (Qflat (m ((c.tc : Thread nD τ).loc main_arg1))) (m ((c.tc : Thread nD τ).loc main_arg2))
      ((Cert.KernelIdeal.Hand.dats m 0 c).arrAt 4 cfg0.N) (hv4 c _ _ _ (V_main_v1 m c).symm (V_main_arg2 m c).symm rfl)
    rw [e3, e4]; rfl
  · exact ((h c).2 main_arg0 (Pipeline.mem_restRefs_of main_arg0 (by decide) (by decide))).trans (W_main_arg0 m (Cert.KernelIdeal.Hand.dats m) c)
  · exact ((h c).2 main_arg1 (Pipeline.mem_restRefs_of main_arg1 (by decide) (by decide))).trans (W_main_arg1 m (Cert.KernelIdeal.Hand.dats m) c)
  · exact ((h c).1 2).trans (((Cert.KernelIdeal.Hand.dats m 0 c).arrAt_in 2 rfl _).trans ((Cert.KernelIdeal.Hand.A_eq m c 2).trans (V_main_arg2 m c)))

end Cert.Bridge

end
-- ==== Proof.FramePieceValues.lean ====
/-
  The pieces as values.  In each of the three control cases of the body every store and every load is an access
  of a whole buffer through the rectangle at offset zero, so what the stored pieces leave in a buffer is the
  payload of the last store into it, and what a load reads is the buffer's contents.  Hence, with x0, x1 the two
  left-hand blocks, x2 the right-hand block and xs0, xs1 what the accumulators held:
    * first contraction tile: the accumulators are overwritten with zeros, read back (the zeros), and left
      holding  zeros + x0 · x2  and  zeros + x1 · x2;
    * middle tile: they are left holding  xs0 + x0 · x2  and  xs1 + x1 · x2;
    * last tile: the same, and the result buffers receive what a whole load of the accumulators then reads,
      the very values just stored.
-/
import proofs.«173117_j45646912422244_2_alg».proof.Proof.FramePieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offset of every access of the body, spelt as a vector literal, is the zero offset. -/
theorem zeroOff : (![0, 0] : Fin 2 → Nat) = fun _ => 0 := funext fun a => by fin_cases a <;> rfl

/-! ## First contraction tile -/

/-- The first accumulator is zeroed, read back, and left holding the zeros plus the first product. -/
theorem sout0_A_0_eq (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) :
    sout0_A_0 c i arg2 harg2 arg3 harg3 arg4 harg4 arg5 harg5 arg6 harg6 arg7 harg7 arg8 harg8 hc0 hc1 x0 x1 x2 = k0_pay3 x2 (k0_pay1 (F := F)) x0 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S160x768) zeroOff, View.readCov_unit_zero (S := S160x768) _ zeroOff]
  simp only [View.readAt_eq_ld, harg2.read_unread, harg4.read_unread,
    View.ld_unit_zero (S := S160x1408) zeroOff, View.ld_unit_zero (S := S1408x768) zeroOff]

/-- The second accumulator is zeroed, read back, and left holding the zeros plus the second product. -/
theorem sout0_A_1_eq (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : cond0_0 i) (hc1 : ¬cond0_1 i) (x0 : Vec F S160x1408 .f32) (x1 : Vec F S480x1408 .f32) (x2 : Vec F S1408x768 .f32) :
    sout0_A_1 c i arg2 harg2 arg3 harg3 arg4 harg4 arg5 harg5 arg6 harg6 arg7 harg7 arg8 harg8 hc0 hc1 x0 x1 x2 = k0_pay4 x2 (k0_pay2 (F := F)) x1 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S480x768) zeroOff, View.readCov_unit_zero (S := S480x768) _ zeroOff]
  simp only [View.readAt_eq_ld, harg3.read_unread, harg4.read_unread,
    View.ld_unit_zero (S := S480x1408) zeroOff, View.ld_unit_zero (S := S1408x768) zeroOff]

/-! ## Middle contraction tiles -/

/-- The first accumulator is left holding what it held plus the first product. -/
theorem sout0_B_0_eq (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) :
    sout0_B_0 c i arg2 harg2 arg3 harg3 arg4 harg4 arg5 harg5 arg6 harg6 arg7 harg7 arg8 harg8 hc0 hc1 x0 x1 x2 xs0 xs1 = k0_pay3 x2 xs0 x0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S160x768) zeroOff]
  simp only [View.readAt_eq_ld, harg2.read_unread, harg4.read_unread, harg7.read_unread,
    View.ld_unit_zero (S := S160x768) zeroOff, View.ld_unit_zero (S := S160x1408) zeroOff,
    View.ld_unit_zero (S := S1408x768) zeroOff]

/-- The second accumulator is left holding what it held plus the second product. -/
theorem sout0_B_1_eq (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : ¬cond0_1 i) (x0 : Vec F S160x1408 .f32) (x1 : Vec F S480x1408 .f32) (x2 : Vec F S1408x768 .f32) (xs0 : Vec F S160x768 .f32) (xs1 : Vec F S480x768 .f32) :
    sout0_B_1 c i arg2 harg2 arg3 harg3 arg4 harg4 arg5 harg5 arg6 harg6 arg7 harg7 arg8 harg8 hc0 hc1 x0 x1 x2 xs0 xs1 = k0_pay4 x2 xs1 x1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S480x768) zeroOff]
  simp only [View.readAt_eq_ld, harg3.read_unread, harg4.read_unread, harg8.read_unread,
    View.ld_unit_zero (S := S480x768) zeroOff, View.ld_unit_zero (S := S480x1408) zeroOff,
    View.ld_unit_zero (S := S1408x768) zeroOff]

/-! ## Last contraction tile -/

/-- The first accumulator is left holding what it held plus the first product. -/
theorem sout0_C_0_eq (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) :
    sout0_C_0 c i arg2 harg2 arg3 harg3 arg4 harg4 arg5 harg5 arg6 harg6 arg7 harg7 arg8 harg8 hc0 hc1 x0 x1 x2 xs0 xs1 = k0_pay3 x2 xs0 x0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S160x768) zeroOff]
  simp only [View.readAt_eq_ld, harg2.read_unread, harg4.read_unread, harg7.read_unread,
    View.ld_unit_zero (S := S160x768) zeroOff, View.ld_unit_zero (S := S160x1408) zeroOff,
    View.ld_unit_zero (S := S1408x768) zeroOff]

/-- The second accumulator is left holding what it held plus the second product. -/
theorem sout0_C_1_eq (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) :
    sout0_C_1 c i arg2 harg2 arg3 harg3 arg4 harg4 arg5 harg5 arg6 harg6 arg7 harg7 arg8 harg8 hc0 hc1 x0 x1 x2 xs0 xs1 = k0_pay4 x2 xs1 x1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S480x768) zeroOff]
  simp only [View.readAt_eq_ld, harg3.read_unread, harg4.read_unread, harg8.read_unread,
    View.ld_unit_zero (S := S480x768) zeroOff, View.ld_unit_zero (S := S480x1408) zeroOff,
    View.ld_unit_zero (S := S1408x768) zeroOff]

/-- The first result buffer receives what a whole load of the first accumulator reads after the accumulating
    store: the value just stored. -/
theorem out0_C_3_eq (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) :
    out0_C_3 c i arg2 harg2 arg3 harg3 arg4 harg4 arg5 harg5 arg6 harg6 arg7 harg7 arg8 harg8 hc0 hc1 x0 x1 x2 xs0 xs1 = k0_pay3 x2 xs0 x0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S160x768) zeroOff, View.readCov_unit_zero (S := S160x768) _ zeroOff]
  simp only [View.readAt_eq_ld, harg2.read_unread, harg4.read_unread, harg7.read_unread,
    View.ld_unit_zero (S := S160x768) zeroOff, View.ld_unit_zero (S := S160x1408) zeroOff,
    View.ld_unit_zero (S := S1408x768) zeroOff]

/-- The second result buffer receives what a whole load of the second accumulator reads after the accumulating
    store: the value just stored. -/
theorem out0_C_4_eq (c : Dev nD) (i : grid0.Coords) (arg2 : Memref sig .tc .vmem S160x1408 .f32) (harg2 : arg2.IsWhole) (arg3 : Memref sig .tc .vmem S480x1408 .f32) (harg3 : arg3.IsWhole) (arg4 : Memref sig .tc .vmem S1408x768 .f32) (harg4 : arg4.IsWhole) (arg5 : Memref sig .tc .vmem S160x768 .f32) (harg5 : arg5.IsWhole) (arg6 : Memref sig .tc .vmem S480x768 .f32) (harg6 : arg6.IsWhole) (arg7 : Memref sig .tc .vmem S160x768 .f32) (harg7 : arg7.IsWhole) (arg8 : Memref sig .tc .vmem S480x768 .f32) (harg8 : arg8.IsWhole) (hc0 : ¬cond0_0 i) (hc1 : cond0_1 i) (x0 : Vec F S160x1408 .f32) (x1 : Vec F S480x1408 .f32) (x2 : Vec F S1408x768 .f32) (xs0 : Vec F S160x768 .f32) (xs1 : Vec F S480x768 .f32) :
    out0_C_4 c i arg2 harg2 arg3 harg3 arg4 harg4 arg5 harg5 arg6 harg6 arg7 harg7 arg8 harg8 hc0 hc1 x0 x1 x2 xs0 xs1 = k0_pay4 x2 xs1 x1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S480x768) zeroOff, View.readCov_unit_zero (S := S480x768) _ zeroOff]
  simp only [View.readAt_eq_ld, harg3.read_unread, harg4.read_unread, harg8.read_unread,
    View.ld_unit_zero (S := S480x768) zeroOff, View.ld_unit_zero (S := S480x1408) zeroOff,
    View.ld_unit_zero (S := S1408x768) zeroOff]

end Cert.KernelIdeal.Hand

end
-- ==== Proof.GridPoint.lean ====
/-
  A point `t` of the 2 × 15 grid, numbered row by row, sits at feature tile `t / 15` and contraction tile
  `t % 15`.
-/
import proofs.«173117_j45646912422244_2_alg».proof.Proof.Gen.KernelIdeal.Launch
import proofs.«173117_j45646912422244_2_alg».proof.Proof.Spec

noncomputable section

namespace Cert.Bridge

open Cert.KernelIdeal Cert.KernelIdeal.Gen

/-- The contraction tile of grid point `t`. -/
def tk (t : Fin cfg0.N) : Fin 15 := ⟨t.val % 15, Nat.mod_lt _ (by norm_num)⟩

/-- The feature tile of grid point `t`. -/
def tg (t : Fin cfg0.N) : Fin 2 := ⟨t.val / 15, by have h := t.isLt; have hN : cfg0.N = 30 := N_0; omega⟩

@[simp] theorem tk_val (t : Fin cfg0.N) : (tk t).val = t.val % 15 := rfl
@[simp] theorem tg_val (t : Fin cfg0.N) : (tg t).val = t.val / 15 := rfl

end Cert.Bridge

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KernelBlocks.lean ====
/-
  What the body reads at a grid point, entry by entry, and what it stores, entry by entry.

  Point t of the 2 × 15 grid has contraction tile k = t mod 15 and feature tile g = t div 15. The three argument windows
  hand the body whole blocks of their arrays: rows i and contraction positions k * 1408 + j of the two flattened batches,
  and contraction positions k * 1408 + j against feature columns g * 768 + l of the weights. The body's stored values are:
  the zero matrix; and an accumulator plus the product of a batch block with the weight block, whose entry (i, l) is
  the accumulator's entry plus the sum over the 1408 positions j of the products of the entries.
-/
import proofs.«173117_j45646912422244_2_alg».proof.Proof.FrameShared
import proofs.«173117_j45646912422244_2_alg».proof.Proof.Spec
import proofs.«173117_j45646912422244_2_alg».proof.Proof.GridPoint
import proofs.«173117_j45646912422244_2_alg».proof.Proof.LibPlainDot
import Idealize.ShloMosaic.Lib.Pipeline.Value
import Idealize.ShloMosaic.Lib.ValueIdx

set_option maxRecDepth 16384

noncomputable section

open scoped BigOperators

namespace Cert.Bridge

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Window)

/-! ## The index maps over the grid -/

/-- The first batch's window: row block 0, contraction tile t mod 15. -/
theorem idx0 : ∀ t : Fin cfg0.N, win0_0.index t (0 : Fin 2) = 0 ∧ win0_0.index t (1 : Fin 2) = t.val % 15 :=
  (by decide +kernel : ∀ t : Fin grid0.N, _)
/-- The second batch's window: the same. -/
theorem idx1 : ∀ t : Fin cfg0.N, win0_1.index t (0 : Fin 2) = 0 ∧ win0_1.index t (1 : Fin 2) = t.val % 15 :=
  (by decide +kernel : ∀ t : Fin grid0.N, _)
/-- The weights' window: contraction tile t mod 15, feature tile t div 15. -/
theorem idx2 : ∀ t : Fin cfg0.N, win0_2.index t (0 : Fin 2) = t.val % 15 ∧ win0_2.index t (1 : Fin 2) = t.val / 15 :=
  (by decide +kernel : ∀ t : Fin grid0.N, _)
/-- The two result windows: row block 0, feature tile t div 15. -/
theorem idx3 : ∀ t : Fin cfg0.N, win0_3.index t (0 : Fin 2) = 0 ∧ win0_3.index t (1 : Fin 2) = t.val / 15 :=
  (by decide +kernel : ∀ t : Fin grid0.N, _)
theorem idx4 : ∀ t : Fin cfg0.N, win0_4.index t (0 : Fin 2) = 0 ∧ win0_4.index t (1 : Fin 2) = t.val / 15 :=
  (by decide +kernel : ∀ t : Fin grid0.N, _)

/-! ## The argument blocks, entry by entry -/

section Blocks

variable (m : (ℓ : Loc nD τ sig) → Buf (Elt Ideal) ℓ) (c : Dev nD)

/-- The first batch's block at point t: entry (i, j) is the batch at row i, position k * 1408 + j. -/
theorem inblk0_at (t : Fin cfg0.N) (k : Fin 15) (hk : k.val = t.val % 15) (i : Fin 160) (j : Fin 1408) :
    inblk m c 0 t (ix2 i j) = V m c main_v0 (ix2 i (kcol k j)) := by
  unfold inblk
  have hm : (cfg0.win 0).moved (grid0.coords t) (ix2 i j) = true :=
    ((cfg0.win 0).moved_iff _ _).mpr fun a => by
      have := ((ix2 i j : (cfg0.win 0).block.Idx) a).isLt
      unfold Window.xsize; rw [noclip0_0 t a]; exact this
  unfold Window.fill
  rw [dif_pos hm]
  unfold iblk
  show V m c main_v0 (((cfg0.win 0).blk t).view.emb _) = _
  congr 1
  funext a; apply Fin.ext
  obtain ⟨e0, e1⟩ := idx0 t
  match a with
  | ⟨0, _⟩ => show win0_0.index t (0 : Fin 2) * 160 + 1 * i.val = i.val; omega
  | ⟨1, _⟩ => show win0_0.index t (1 : Fin 2) * 1408 + 1 * j.val = k.val * 1408 + j.val; rw [e1, hk]; omega

/-- The second batch's block at point t: entry (i, j) is the batch at row i, position k * 1408 + j. -/
theorem inblk1_at (t : Fin cfg0.N) (k : Fin 15) (hk : k.val = t.val % 15) (i : Fin 480) (j : Fin 1408) :
    inblk m c 1 t (ix2 i j) = V m c main_v1 (ix2 i (kcol k j)) := by
  unfold inblk
  have hm : (cfg0.win 1).moved (grid0.coords t) (ix2 i j) = true :=
    ((cfg0.win 1).moved_iff _ _).mpr fun a => by
      have := ((ix2 i j : (cfg0.win 1).block.Idx) a).isLt
      unfold Window.xsize; rw [noclip0_1 t a]; exact this
  unfold Window.fill
  rw [dif_pos hm]
  unfold iblk
  show V m c main_v1 (((cfg0.win 1).blk t).view.emb _) = _
  congr 1
  funext a; apply Fin.ext
  obtain ⟨e0, e1⟩ := idx1 t
  match a with
  | ⟨0, _⟩ => show win0_1.index t (0 : Fin 2) * 480 + 1 * i.val = i.val; omega
  | ⟨1, _⟩ => show win0_1.index t (1 : Fin 2) * 1408 + 1 * j.val = k.val * 1408 + j.val; rw [e1, hk]; omega

/-- The weights' block at point t: entry (j, l) is the weights at position k * 1408 + j, column g * 768 + l. -/
theorem inblk2_at (t : Fin cfg0.N) (k : Fin 15) (hk : k.val = t.val % 15) (g : Fin 2) (hg : g.val = t.val / 15)
    (j : Fin 1408) (l : Fin 768) :
    inblk m c 2 t (ix2 j l) = V m c main_arg2 (ix2 (kcol k j) (ncol (gcol g l))) := by
  unfold inblk
  have hm : (cfg0.win 2).moved (grid0.coords t) (ix2 j l) = true :=
    ((cfg0.win 2).moved_iff _ _).mpr fun a => by
      have := ((ix2 j l : (cfg0.win 2).block.Idx) a).isLt
      unfold Window.xsize; rw [noclip0_2 t a]; exact this
  unfold Window.fill
  rw [dif_pos hm]
  unfold iblk
  show V m c main_arg2 (((cfg0.win 2).blk t).view.emb _) = _
  congr 1
  funext a; apply Fin.ext
  obtain ⟨e0, e1⟩ := idx2 t
  match a with
  | ⟨0, _⟩ => show win0_2.index t (0 : Fin 2) * 1408 + 1 * j.val = k.val * 1408 + j.val; rw [e0, hk]; omega
  | ⟨1, _⟩ => show win0_2.index t (1 : Fin 2) * 768 + 1 * l.val = g.val * 768 + l.val; rw [e1, hg]; omega

end Blocks

/-- The first batch's block at point t, over named arrays: entry (i, j) is the batch at row i, position (t mod 15) * 1408 + j. -/
theorem inblk0_apply (m : (ℓ : Loc nD τ sig) → Buf (Elt Ideal) ℓ) (c : Dev nD) (t : Fin cfg0.N)
    (S : FVec Ideal S160x21168 .f32) (hS : S = V m c main_v0) (x0 : FVec Ideal S160x1408 .f32) (hx : x0 = inblk m c 0 t)
    (i : Fin 160) (j : Fin 1408) :
    x0 (ValueIdx.ix2 i j) = S (ValueIdx.ix2 i (kcol (tk t) j)) := by
  subst hS hx
  exact inblk0_at m c t (tk t) rfl i j

/-- The second batch's block at point t, over named arrays. -/
theorem inblk1_apply (m : (ℓ : Loc nD τ sig) → Buf (Elt Ideal) ℓ) (c : Dev nD) (t : Fin cfg0.N)
    (Q : FVec Ideal S480x21168 .f32) (hQ : Q = V m c main_v1) (x1 : FVec Ideal S480x1408 .f32) (hx : x1 = inblk m c 1 t)
    (i : Fin 480) (j : Fin 1408) :
    x1 (ValueIdx.ix2 i j) = Q (ValueIdx.ix2 i (kcol (tk t) j)) := by
  subst hQ hx
  exact inblk1_at m c t (tk t) rfl i j

/-- The weights' block at point t, over named arrays: entry (j, l) is the weights at position (t mod 15) * 1408 + j,
    column (t div 15) * 768 + l. -/
theorem inblk2_apply (m : (ℓ : Loc nD τ sig) → Buf (Elt Ideal) ℓ) (c : Dev nD) (t : Fin cfg0.N)
    (W : FVec Ideal S21168x1600 .f32) (hW : W = V m c main_arg2) (x2 : FVec Ideal S1408x768 .f32) (hx : x2 = inblk m c 2 t)
    (j : Fin 1408) (l : Fin 768) :
    x2 (ValueIdx.ix2 j l) = W (ValueIdx.ix2 (kcol (tk t) j) (ncol (gcol (tg t) l))) := by
  subst hW hx
  exact inblk2_at m c t (tk t) rfl (tg t) rfl j l

/-! ## The stored values, entry by entry -/

/-- An accumulator plus a plain product into zero: entry (i, l) is the accumulator's entry plus the sum over the
    contracted positions of the products of the entries. -/
theorem acc_plus_product_apply {M : ℕ} (d : DotDims ⟨2, ![M, 1408]⟩ ⟨2, ![1408, 768]⟩ ⟨2, ![M, 768]⟩)
    (hd : d = DotDims.plain M 1408 768) (p : Option ContractPrecision)
    (x2 : FVec Ideal ⟨2, ![1408, 768]⟩ .f32) (xs : FVec Ideal ⟨2, ![M, 768]⟩ .f32) (x0 : FVec Ideal ⟨2, ![M, 1408]⟩ .f32)
    (h1 : (⟨2, ![M, 1408]⟩ : Shape).ShapeCasts ⟨2, ![M, 1408]⟩) (h2 : (⟨2, ![M, 768]⟩ : Shape).ShapeCasts ⟨2, ![M, 768]⟩)
    (i : Fin M) (l : Fin 768) :
    shapeCast ⟨2, ![M, 768]⟩ (addf xs (matmul d p (shapeCast ⟨2, ![M, 1408]⟩ x0 h1) x2
        (constant (F := Ideal) ⟨2, ![M, 768]⟩ .f32 0x00000000#32))) h2 (ix2 i l)
      = xs (ix2 i l) + ∑ j : Fin 1408, x0 (ix2 i j) * x2 (ix2 j l) := by
  subst hd
  rw [shapeCast_self, shapeCast_self, addf_apply, Cert.PlainDot.matmul_zero_plain_apply]

/-- The zero matrix stored into the first accumulator at a first contraction tile. -/
theorem pay1_apply (i : Fin 160) (l : Fin 768) : k0_pay1 (F := Ideal) (ix2 i l) = 0 := by
  unfold k0_pay1
  rw [shapeCast_self]
  exact Ideal.ofBits_zero_f32

/-- The zero matrix stored into the second accumulator at a first contraction tile. -/
theorem pay2_apply (i : Fin 480) (l : Fin 768) : k0_pay2 (F := Ideal) (ix2 i l) = 0 := by
  unfold k0_pay2
  rw [shapeCast_self]
  exact Ideal.ofBits_zero_f32

/-- The first accumulator's new contents: its old entry plus the tile's product at that entry. -/
theorem pay3_apply (x2 : FVec Ideal S1408x768 .f32) (xs : FVec Ideal S160x768 .f32) (x0 : FVec Ideal S160x1408 .f32)
    (i : Fin 160) (l : Fin 768) :
    k0_pay3 (F := Ideal) x2 xs x0 (ix2 i l) = xs (ix2 i l) + ∑ j : Fin 1408, x0 (ix2 i j) * x2 (ix2 j l) :=
  acc_plus_product_apply _ rfl _ x2 xs x0 _ _ i l

/-- The second accumulator's new contents: its old entry plus the tile's product at that entry. -/
theorem pay4_apply (x2 : FVec Ideal S1408x768 .f32) (xs : FVec Ideal S480x768 .f32) (x1 : FVec Ideal S480x1408 .f32)
    (i : Fin 480) (l : Fin 768) :
    k0_pay4 (F := Ideal) x2 xs x1 (ix2 i l) = xs (ix2 i l) + ∑ j : Fin 1408, x1 (ix2 i j) * x2 (ix2 j l) :=
  acc_plus_product_apply _ rfl _ x2 xs x1 _ _ i l

end Cert.Bridge

end
-- ==== Proof.LibTileAccum.lean ====
/-
  A running total kept along tiles of `L` points each.

  The points `0, 1, 2, …` are cut into consecutive rows of `L` points. A total `a` is reset to the point's term at
  the first point of a row, is added to at every later point of the row, and at the row's last point an extra
  term `b` is added as well. Then at the last point of a row the total is the sum of that row's `L` terms plus `b`.
-/
import Mathlib.Algebra.BigOperators.Group.Finset.Basic

open scoped BigOperators

namespace Cert.Lib.TileAccum

/-- The position inside a row of the next point: back to `0` after the last position, one more otherwise. -/
theorem succ_mod (L n : ℕ) (hL : 2 ≤ L) : (n + 1) % L = if n % L = L - 1 then 0 else n % L + 1 := by
  have hr : n % L < L := Nat.mod_lt _ (by omega)
  have h1 : 1 % L = 1 := Nat.mod_eq_of_lt (by omega)
  rw [Nat.add_mod_eq_ite, h1]
  split_ifs <;> omega

/-- Before a row's last point the total is the sum of the row's terms up to the point. -/
theorem partial_eq {M : Type*} [AddCommMonoid M] (L N : ℕ) (hL : 2 ≤ L) (P a : ℕ → M)
    (h0 : 0 < N → a 0 = P 0)
    (hfirst : ∀ n, n + 1 < N → (n + 1) % L = 0 → a (n + 1) = P (n + 1))
    (hmid : ∀ n, n + 1 < N → (n + 1) % L ≠ 0 → (n + 1) % L ≠ L - 1 → a (n + 1) = a n + P (n + 1)) :
    ∀ n, n < N → n % L ≠ L - 1 → a n = ∑ k ∈ Finset.range (n % L + 1), P (n - n % L + k) := by
  intro n
  induction n with
  | zero =>
    intro hN _
    rw [Nat.zero_mod, Finset.sum_range_one]
    exact h0 hN
  | succ n ih =>
    intro hN hne
    have hs := succ_mod L n hL
    by_cases hz : (n + 1) % L = 0
    · rw [hz, Finset.sum_range_one]
      exact hfirst n hN hz
    · have hr : n % L ≠ L - 1 := fun h => hz (by rw [hs, if_pos h])
      rw [if_neg hr] at hs
      have hle : n % L ≤ n := Nat.mod_le _ _
      have e1 : n + 1 - (n % L + 1) = n - n % L := by omega
      have e2 : n - n % L + (n % L + 1) = n + 1 := by omega
      rw [hs, Finset.sum_range_succ, e1, e2, ← ih (by omega) hr]
      exact hmid n hN hz hne

/-- At a row's last point the total is the sum of the row's `L` terms plus the extra term. -/
theorem last_eq {M : Type*} [AddCommMonoid M] (L N : ℕ) (hL : 2 ≤ L) (P b a : ℕ → M)
    (h0 : 0 < N → a 0 = P 0)
    (hfirst : ∀ n, n + 1 < N → (n + 1) % L = 0 → a (n + 1) = P (n + 1))
    (hmid : ∀ n, n + 1 < N → (n + 1) % L ≠ 0 → (n + 1) % L ≠ L - 1 → a (n + 1) = a n + P (n + 1))
    (hlast : ∀ n, n + 1 < N → (n + 1) % L = L - 1 → a (n + 1) = (a n + P (n + 1)) + b (n + 1)) :
    ∀ n, n < N → n % L = L - 1 → a n = (∑ k ∈ Finset.range L, P (n - (L - 1) + k)) + b n := by
  intro n hN hn
  obtain ⟨m, rfl⟩ : ∃ m, n = m + 1 := by
    refine ⟨n - 1, ?_⟩
    have : n ≠ 0 := fun h => by rw [h, Nat.zero_mod] at hn; omega
    omega
  have hs := succ_mod L m hL
  have hr : m % L ≠ L - 1 := fun h => by rw [hs, if_pos h] at hn; omega
  rw [if_neg hr] at hs
  have hm : m % L + 1 = L - 1 := by omega
  have hle : m % L ≤ m := Nat.mod_le _ _
  have ih := partial_eq L N hL P a h0 hfirst hmid m (by omega) hr
  have eR : Finset.range L = Finset.range (m % L + 1 + 1) := congrArg Finset.range (by omega)
  have e1 : m + 1 - (L - 1) = m - m % L := by omega
  have e2 : m - m % L + (m % L + 1) = m + 1 := by omega
  rw [hlast m hN hn, e1, ih, eR, Finset.sum_range_succ _ (m % L + 1), e2]

/-- The same with rows of 43 points. -/
theorem last_eq_43 {M : Type*} [AddCommMonoid M] (N : ℕ) (P b a : ℕ → M)
    (h0 : 0 < N → a 0 = P 0)
    (hfirst : ∀ n, n + 1 < N → (n + 1) % 43 = 0 → a (n + 1) = P (n + 1))
    (hmid : ∀ n, n + 1 < N → (n + 1) % 43 ≠ 0 → (n + 1) % 43 ≠ 42 → a (n + 1) = a n + P (n + 1))
    (hlast : ∀ n, n + 1 < N → (n + 1) % 43 = 42 → a (n + 1) = (a n + P (n + 1)) + b (n + 1)) :
    ∀ n, n < N → n % 43 = 42 → a n = (∑ k ∈ Finset.range 43, P (n - 42 + k)) + b n :=
  last_eq 43 N (by omega) P b a h0 hfirst hmid hlast

end Cert.Lib.TileAccum
-- ==== Proof.KernelAccum.lean ====
/-
  The two accumulators along the contraction tiles.

  Point t of the 2 × 15 grid has contraction tile t mod 15 and feature tile t div 15. At a first contraction tile the
  body zeroes an accumulator and adds the tile's product; at every later tile it adds the tile's product to what the point
  before left; at the last tile it copies the accumulator to the result buffer. So at a last tile the result buffer holds
  the sum over the fifteen tiles of the tile products, and a tile product at entry (i, l) is the sum over the tile's 1408
  positions of the products of the entries. Only the laws of a commutative monoid under addition are used (zero is
  neutral, sums are regrouped).
-/
import proofs.«173117_j45646912422244_2_alg».proof.Proof.FrameData
import proofs.«173117_j45646912422244_2_alg».proof.Proof.FramePieceValues
import proofs.«173117_j45646912422244_2_alg».proof.Proof.GridPoint
import proofs.«173117_j45646912422244_2_alg».proof.Proof.KernelBlocks
import proofs.«173117_j45646912422244_2_alg».proof.Proof.LibTileAccum

set_option maxRecDepth 16384

noncomputable section

open scoped BigOperators

namespace Cert.Bridge

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Window)

/-- One tile's product at entry (i, l): the sum over the tile's 1408 positions. -/
def tileTerm {M : ℕ} (x : FVec Ideal ⟨2, ![M, 1408]⟩ .f32) (x2 : FVec Ideal ⟨2, ![1408, 768]⟩ .f32) (i : Fin M) (l : Fin 768) :
    Ideal .f32 :=
  ∑ j : Fin 1408, x (ix2 i j) * x2 (ix2 j l)

/-- A matrix read at entry (i, l). -/
def entry {M : ℕ} (a : FVec Ideal ⟨2, ![M, 768]⟩ .f32) (i : Fin M) (l : Fin 768) : Ideal .f32 := a (ix2 i l)

/-! ## The first accumulator -/

section Acc0

variable (m : (ℓ : Loc nD τ sig) → Buf (Elt Ideal) ℓ) (c : Dev nD)

/-- At a first contraction tile the first accumulator holds that tile's product: the zero matrix plus it. -/
theorem acc0_first (t : Fin cfg0.N) (h0 : t.val % 15 = 0)
    (x : FVec Ideal S160x1408 .f32) (x2 : FVec Ideal S1408x768 .f32) (hx : x = inblk m c 0 t) (hx2 : x2 = inblk m c 2 t)
    (a : FVec Ideal S160x768 .f32) (ha : a = (outsAt0 m c t.val t.isLt).2.2.1) (i : Fin 160) (l : Fin 768) :
    a (ix2 i l) = tileTerm x x2 i l := by
  have h1 : ¬t.val % 15 = 14 := by omega
  subst hx hx2 ha
  rw [outsAt0_A m c t h0 h1]
  dsimp only
  rw [sout0_A_0_eq, pay3_apply, pay1_apply, zero_add]
  rfl

/-- At a later contraction tile it holds what the point before left plus this tile's product. -/
theorem acc0_next (t : Fin cfg0.N) (h0 : ¬t.val % 15 = 0)
    (x : FVec Ideal S160x1408 .f32) (x2 : FVec Ideal S1408x768 .f32) (hx : x = inblk m c 0 t) (hx2 : x2 = inblk m c 2 t)
    (a p : FVec Ideal S160x768 .f32) (ha : a = (outsAt0 m c t.val t.isLt).2.2.1)
    (hp : p = (outsAt0 m c (t.val - 1) (Nat.lt_of_le_of_lt (Nat.sub_le _ _) t.isLt)).2.2.1) (i : Fin 160) (l : Fin 768) :
    a (ix2 i l) = p (ix2 i l) + tileTerm x x2 i l := by
  subst hx hx2 ha hp
  by_cases h1 : t.val % 15 = 14
  · rw [outsAt0_C m c t h0 h1]
    dsimp only
    rw [sout0_C_0_eq, pay3_apply]
    rfl
  · rw [outsAt0_B m c t h0 h1]
    dsimp only
    rw [sout0_B_0_eq, pay3_apply]
    rfl

/-- At a last contraction tile the result buffer holds what the accumulator holds. -/
theorem out3_eq_acc (t : Fin cfg0.N) (h1 : t.val % 15 = 14)
    (b a : FVec Ideal S160x768 .f32) (hb : b = (outsAt0 m c t.val t.isLt).1)
    (ha : a = (outsAt0 m c t.val t.isLt).2.2.1) : b = a := by
  have h0 : ¬t.val % 15 = 0 := by omega
  subst hb ha
  rw [outsAt0_C m c t h0 h1]
  dsimp only
  rw [out0_C_3_eq, sout0_C_0_eq]

/-- Point n's tile product at entry (i, l), as a function of every natural number (zero past the grid). -/
def P0 (i : Fin 160) (l : Fin 768) (n : ℕ) : Ideal .f32 :=
  if h : n < cfg0.N then tileTerm (M := 160) (inblk m c 0 ⟨n, h⟩) (inblk m c 2 ⟨n, h⟩) i l else 0

/-- The first accumulator after point n at entry (i, l), as a function of every natural number. -/
def A0 (i : Fin 160) (l : Fin 768) (n : ℕ) : Ideal .f32 :=
  if h : n < cfg0.N then entry (M := 160) (outsAt0 m c n h).2.2.1 i l else 0

theorem A0_first (i : Fin 160) (l : Fin 768) (n : ℕ) (hn : n < cfg0.N) (h0 : n % 15 = 0) :
    A0 m c i l n = P0 m c i l n := by
  unfold A0 P0
  rw [dif_pos hn, dif_pos hn]
  exact acc0_first m c ⟨n, hn⟩ h0 _ _ rfl rfl _ rfl i l

theorem A0_next (i : Fin 160) (l : Fin 768) (n : ℕ) (hn : n + 1 < cfg0.N) (h0 : (n + 1) % 15 ≠ 0) :
    A0 m c i l (n + 1) = A0 m c i l n + P0 m c i l (n + 1) := by
  unfold A0 P0
  rw [dif_pos hn, dif_pos hn, dif_pos (Nat.lt_of_succ_lt hn)]
  exact acc0_next m c ⟨n + 1, hn⟩ h0 _ _ rfl rfl _ _ rfl rfl i l

/-- After a last contraction tile the accumulator holds the sum of its tile row's fifteen products. -/
theorem A0_last (i : Fin 160) (l : Fin 768) (n : ℕ) (hn : n < cfg0.N) (h1 : n % 15 = 14) :
    A0 m c i l n = ∑ k ∈ Finset.range 15, P0 m c i l (n - 14 + k) := by
  have hN : cfg0.N = 30 := N_0
  have h := Cert.Lib.TileAccum.last_eq 15 cfg0.N (by omega) (P0 m c i l) (fun _ => 0) (A0 m c i l)
    (fun h => A0_first m c i l 0 h (Nat.zero_mod _))
    (fun n hn h0 => A0_first m c i l (n + 1) hn h0)
    (fun n hn h0 _ => A0_next m c i l n hn h0)
    (fun n hn h1 => ((A0_next m c i l n hn (by omega)).trans (add_zero _).symm))
    n hn (by omega)
  rw [h, add_zero]

end Acc0

/-- At a last contraction tile the first result buffer holds, at entry (i, l), the sum over all fifteen tiles and
    their 1408 positions of the products of the batch's row i with the weights' column (t div 15) * 768 + l. -/
theorem out3_block (m : (ℓ : Loc nD τ sig) → Buf (Elt Ideal) ℓ) (c : Dev nD) (t : Fin cfg0.N) (ht : t.val % 15 = 14)
    (S : FVec Ideal S160x21168 .f32) (W : FVec Ideal S21168x1600 .f32) (hS : S = V m c main_v0) (hW : W = V m c main_arg2)
    (b : FVec Ideal S160x768 .f32) (hb : b = (Cert.KernelIdeal.Hand.outsAt0 m c t.val t.isLt).1) (i : Fin 160) (l : Fin 768) :
    b (ValueIdx.ix2 i l) = ∑ k : Fin 15, ∑ j : Fin 1408, S (ValueIdx.ix2 i (kcol k j)) * W (ValueIdx.ix2 (kcol k j) (ncol (gcol (tg t) l))) := by
  have hN : cfg0.N = 30 := N_0
  have htN : t.val < 30 := lt_of_lt_of_eq t.isLt hN
  rw [out3_eq_acc m c t ht b _ hb rfl]
  refine Eq.trans (b := A0 m c i l t.val) ?_ ?_
  · unfold A0; rw [dif_pos t.isLt]; rfl
  rw [A0_last m c i l t.val t.isLt ht, Finset.sum_range]
  refine Finset.sum_congr rfl fun k _ => ?_
  have hk : k.val < 15 := k.isLt
  have hlt : t.val - 14 + k.val < cfg0.N := by omega
  unfold P0
  rw [dif_pos hlt]
  unfold tileTerm
  refine Finset.sum_congr rfl fun j _ => ?_
  rw [inblk0_apply m c ⟨t.val - 14 + k.val, hlt⟩ S hS _ rfl i j, inblk2_apply m c ⟨t.val - 14 + k.val, hlt⟩ W hW _ rfl j l]
  have ek : tk (⟨t.val - 14 + k.val, hlt⟩ : Fin cfg0.N) = k := Fin.ext (by simp only [tk_val]; omega)
  have eg : tg (⟨t.val - 14 + k.val, hlt⟩ : Fin cfg0.N) = tg t := Fin.ext (by simp only [tg_val]; omega)
  rw [ek, eg]

/-! ## The second accumulator -/

section Acc1

variable (m : (ℓ : Loc nD τ sig) → Buf (Elt Ideal) ℓ) (c : Dev nD)

/-- At a first contraction tile the second accumulator holds that tile's product: the zero matrix plus it. -/
theorem acc1_first (t : Fin cfg0.N) (h0 : t.val % 15 = 0)
    (x : FVec Ideal S480x1408 .f32) (x2 : FVec Ideal S1408x768 .f32) (hx : x = inblk m c 1 t) (hx2 : x2 = inblk m c 2 t)
    (a : FVec Ideal S480x768 .f32) (ha : a = (outsAt0 m c t.val t.isLt).2.2.2) (i : Fin 480) (l : Fin 768) :
    a (ix2 i l) = tileTerm x x2 i l := by
  have h1 : ¬t.val % 15 = 14 := by omega
  subst hx hx2 ha
  rw [outsAt0_A m c t h0 h1]
  dsimp only
  rw [sout0_A_1_eq, pay4_apply, pay2_apply, zero_add]
  rfl

/-- At a later contraction tile it holds what the point before left plus this tile's product. -/
theorem acc1_next (t : Fin cfg0.N) (h0 : ¬t.val % 15 = 0)
    (x : FVec Ideal S480x1408 .f32) (x2 : FVec Ideal S1408x768 .f32) (hx : x = inblk m c 1 t) (hx2 : x2 = inblk m c 2 t)
    (a p : FVec Ideal S480x768 .f32) (ha : a = (outsAt0 m c t.val t.isLt).2.2.2)
    (hp : p = (outsAt0 m c (t.val - 1) (Nat.lt_of_le_of_lt (Nat.sub_le _ _) t.isLt)).2.2.2) (i : Fin 480) (l : Fin 768) :
    a (ix2 i l) = p (ix2 i l) + tileTerm x x2 i l := by
  subst hx hx2 ha hp
  by_cases h1 : t.val % 15 = 14
  · rw [outsAt0_C m c t h0 h1]
    dsimp only
    rw [sout0_C_1_eq, pay4_apply]
    rfl
  · rw [outsAt0_B m c t h0 h1]
    dsimp only
    rw [sout0_B_1_eq, pay4_apply]
    rfl

/-- At a last contraction tile the result buffer holds what the accumulator holds. -/
theorem out4_eq_acc (t : Fin cfg0.N) (h1 : t.val % 15 = 14)
    (b a : FVec Ideal S480x768 .f32) (hb : b = (outsAt0 m c t.val t.isLt).2.1)
    (ha : a = (outsAt0 m c t.val t.isLt).2.2.2) : b = a := by
  have h0 : ¬t.val % 15 = 0 := by omega
  subst hb ha
  rw [outsAt0_C m c t h0 h1]
  dsimp only
  rw [out0_C_4_eq, sout0_C_1_eq]

/-- Point n's tile product at entry (i, l), as a function of every natural number (zero past the grid). -/
def P1 (i : Fin 480) (l : Fin 768) (n : ℕ) : Ideal .f32 :=
  if h : n < cfg0.N then tileTerm (M := 480) (inblk m c 1 ⟨n, h⟩) (inblk m c 2 ⟨n, h⟩) i l else 0

/-- The second accumulator after point n at entry (i, l), as a function of every natural number. -/
def A1 (i : Fin 480) (l : Fin 768) (n : ℕ) : Ideal .f32 :=
  if h : n < cfg0.N then entry (M := 480) (outsAt0 m c n h).2.2.2 i l else 0

theorem A1_first (i : Fin 480) (l : Fin 768) (n : ℕ) (hn : n < cfg0.N) (h0 : n % 15 = 0) :
    A1 m c i l n = P1 m c i l n := by
  unfold A1 P1
  rw [dif_pos hn, dif_pos hn]
  exact acc1_first m c ⟨n, hn⟩ h0 _ _ rfl rfl _ rfl i l

theorem A1_next (i : Fin 480) (l : Fin 768) (n : ℕ) (hn : n + 1 < cfg0.N) (h0 : (n + 1) % 15 ≠ 0) :
    A1 m c i l (n + 1) = A1 m c i l n + P1 m c i l (n + 1) := by
  unfold A1 P1
  rw [dif_pos hn, dif_pos hn, dif_pos (Nat.lt_of_succ_lt hn)]
  exact acc1_next m c ⟨n + 1, hn⟩ h0 _ _ rfl rfl _ _ rfl rfl i l

/-- After a last contraction tile the accumulator holds the sum of its tile row's fifteen products. -/
theorem A1_last (i : Fin 480) (l : Fin 768) (n : ℕ) (hn : n < cfg0.N) (h1 : n % 15 = 14) :
    A1 m c i l n = ∑ k ∈ Finset.range 15, P1 m c i l (n - 14 + k) := by
  have hN : cfg0.N = 30 := N_0
  have h := Cert.Lib.TileAccum.last_eq 15 cfg0.N (by omega) (P1 m c i l) (fun _ => 0) (A1 m c i l)
    (fun h => A1_first m c i l 0 h (Nat.zero_mod _))
    (fun n hn h0 => A1_first m c i l (n + 1) hn h0)
    (fun n hn h0 _ => A1_next m c i l n hn h0)
    (fun n hn h1 => ((A1_next m c i l n hn (by omega)).trans (add_zero _).symm))
    n hn (by omega)
  rw [h, add_zero]

end Acc1

/-- At a last contraction tile the second result buffer holds, at entry (i, l), the sum over all fifteen tiles and
    their 1408 positions of the products of the batch's row i with the weights' column (t div 15) * 768 + l. -/
theorem out4_block (m : (ℓ : Loc nD τ sig) → Buf (Elt Ideal) ℓ) (c : Dev nD) (t : Fin cfg0.N) (ht : t.val % 15 = 14)
    (Q : FVec Ideal S480x21168 .f32) (W : FVec Ideal S21168x1600 .f32) (hQ : Q = V m c main_v1) (hW : W = V m c main_arg2)
    (b : FVec Ideal S480x768 .f32) (hb : b = (Cert.KernelIdeal.Hand.outsAt0 m c t.val t.isLt).2.1) (i : Fin 480) (l : Fin 768) :
    b (ValueIdx.ix2 i l) = ∑ k : Fin 15, ∑ j : Fin 1408, Q (ValueIdx.ix2 i (kcol k j)) * W (ValueIdx.ix2 (kcol k j) (ncol (gcol (tg t) l))) := by
  have hN : cfg0.N = 30 := N_0
  have htN : t.val < 30 := lt_of_lt_of_eq t.isLt hN
  rw [out4_eq_acc m c t ht b _ hb rfl]
  refine Eq.trans (b := A1 m c i l t.val) ?_ ?_
  · unfold A1; rw [dif_pos t.isLt]; rfl
  rw [A1_last m c i l t.val t.isLt ht, Finset.sum_range]
  refine Finset.sum_congr rfl fun k _ => ?_
  have hk : k.val < 15 := k.isLt
  have hlt : t.val - 14 + k.val < cfg0.N := by omega
  unfold P1
  rw [dif_pos hlt]
  unfold tileTerm
  refine Finset.sum_congr rfl fun j _ => ?_
  rw [inblk1_apply m c ⟨t.val - 14 + k.val, hlt⟩ Q hQ _ rfl i j, inblk2_apply m c ⟨t.val - 14 + k.val, hlt⟩ W hW _ rfl j l]
  have ek : tk (⟨t.val - 14 + k.val, hlt⟩ : Fin cfg0.N) = k := Fin.ext (by simp only [tk_val]; omega)
  have eg : tg (⟨t.val - 14 + k.val, hlt⟩ : Fin cfg0.N) = tg t := Fin.ext (by simp only [tg_val]; omega)
  rw [ek, eg]

end Cert.Bridge

end
-- ==== Proof.KernelValue.lean ====
/-
  What the kernel leaves in its two result arrays.  The result windows are written back only at the last
  contraction tile of each feature tile, that is at the two grid points numbered 14 and 29; the block written
  back there is a whole block of 768 columns, columns g * 768 + l of the array for feature tile g, and the two
  blocks tile the array's 1536 columns.  Each written-back block holds, at row i and inner column l, the sum over
  the fifteen contraction tiles and the 1408 positions of each of the products of the batch's entry with the
  weights' entry in column g * 768 + l.  So each result array holds, at row i and column n, that double sum for
  column n.
-/
import proofs.«173117_j45646912422244_2_alg».proof.Proof.KernelAccum
import proofs.«173117_j45646912422244_2_alg».proof.Proof.KernelBlocks
import proofs.«173117_j45646912422244_2_alg».proof.Proof.FrameData
import Idealize.ShloMosaic.Lib.Pipeline.Value
import Idealize.ShloMosaic.Lib.ValueIdx

set_option maxRecDepth 16384

noncomputable section

open scoped BigOperators

namespace Cert.Bridge

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Window)

/-! ## The first result array -/

/-- Entry (i, n) of the first result: row i of the batch against column n of the weights, over the tiled positions. -/
def entry3 (S : FVec Ideal S160x21168 .f32) (W : FVec Ideal S21168x1600 .f32) (i : Fin 160) (n : Fin 1536) : Ideal .f32 :=
  ∑ k : Fin 15, ∑ j : Fin 1408, S (ix2 i (kcol k j)) * W (ix2 (kcol k j) (ncol n))

/-- The whole array of those entries. -/
def resultArr3 (S : FVec Ideal S160x21168 .f32) (W : FVec Ideal S21168x1600 .f32) : FVec Ideal S160x1536 .f32 :=
  fun idx => entry3 S W (idx 0) (idx 1)

/-- What a flushing point writes back is its block of that array. -/
theorem flushed3_eq (m : (ℓ : Loc nD τ sig) → Buf (Elt Ideal) ℓ) (c : Dev nD)
    (S : FVec Ideal S160x21168 .f32) (W : FVec Ideal S21168x1600 .f32) (hS : S = V m c main_v0) (hW : W = V m c main_arg2)
    (t : Fin cfg0.N) (hf : (cfg0.win 3).flush t = true) :
    (dats m 0 c).flushed 3 t = ((cfg0.win 3).blk t).view.read (Elt Ideal) (resultArr3 S W) := by
  have ht : t.val % 15 = 14 := (flush0_3 t).mp hf
  show (cfg0.win 3).cut (grid0.coords t) ((dats m 0 c).after 3 t) = _
  rw [after0_3]
  funext y
  have hy0 : (y 0).val < 160 := (y 0).isLt
  have hy1 : (y 1).val < 768 := (y 1).isLt
  have hin : (cfg0.win 3).xinj (grid0.coords t) y = ix2 (⟨(y 0).val, hy0⟩ : Fin 160) (⟨(y 1).val, hy1⟩ : Fin 768) := by
    funext a
    match a with
    | ⟨0, _⟩ => rfl
    | ⟨1, _⟩ => rfl
  have e0 : (((cfg0.win 3).blk t).view.emb y) 0 = (⟨(y 0).val, hy0⟩ : Fin 160) := Fin.ext (by
    show win0_3.index t (0 : Fin 2) * 160 + 1 * (y 0).val = (y 0).val
    rw [(idx3 t).1]; omega)
  have e1 : (((cfg0.win 3).blk t).view.emb y) 1 = gcol (tg t) (⟨(y 1).val, hy1⟩ : Fin 768) := Fin.ext (by
    show win0_3.index t (1 : Fin 2) * 768 + 1 * (y 1).val = t.val / 15 * 768 + (y 1).val
    rw [(idx3 t).2]; omega)
  show (outsAt0 m c t.val t.isLt).1 ((cfg0.win 3).xinj (grid0.coords t) y) = entry3 S W ((((cfg0.win 3).blk t).view.emb y) 0) ((((cfg0.win 3).blk t).view.emb y) 1)
  rw [hin, e0, e1]
  exact out3_block m c t ht S W hS hW _ rfl _ _

/-- An index of the array is in point t's block iff each coordinate is in the block's range on its axis. -/
theorem mem_blk3 (t : Fin cfg0.N) (i : S160x1536.Idx) :
    i ∈ ((cfg0.win 3).blk t).view.set ↔ ∀ a : Fin 2, win0_3.index t a * S160x768.size a ≤ (i a).val ∧ (i a).val < win0_3.index t a * S160x768.size a + S160x768.size a := by
  show i ∈ ((View.whole main_v2_0).slice (win0_3.rect t)).set ↔ _
  rw [View.set_slice_whole, Rect.mem_set_unit]
  exact Iff.rfl

/-- Every entry of the array lies in the block written back at the last contraction tile of its feature tile. -/
theorem cover3 (i : S160x1536.Idx) :
    ∃ t : Fin cfg0.N, (cfg0.win 3).flush t = true ∧ i ∈ ((cfg0.win 3).blk t).view.set := by
  have hN : cfg0.N = 30 := N_0
  have hi0 : (i 0).val < 160 := (i 0).isLt
  have hi1 : (i 1).val < 1536 := (i 1).isLt
  let t : Fin cfg0.N := ⟨(i 1).val / 768 * 15 + 14, by omega⟩
  have htv : t.val = (i 1).val / 768 * 15 + 14 := rfl
  refine ⟨t, (flush0_3 t).mpr (by omega), ?_⟩
  rw [mem_blk3]
  intro a
  match a with
  | ⟨0, _⟩ =>
    show win0_3.index t (0 : Fin 2) * 160 ≤ (i 0).val ∧ (i 0).val < win0_3.index t (0 : Fin 2) * 160 + 160
    rw [(idx3 t).1]; omega
  | ⟨1, _⟩ =>
    show win0_3.index t (1 : Fin 2) * 768 ≤ (i 1).val ∧ (i 1).val < win0_3.index t (1 : Fin 2) * 768 + 768
    rw [(idx3 t).2, htv]; omega

/-- The array after the run. -/
theorem final3 (m : (ℓ : Loc nD τ sig) → Buf (Elt Ideal) ℓ) (c : Dev nD)
    (S : FVec Ideal S160x21168 .f32) (W : FVec Ideal S21168x1600 .f32) (hS : S = V m c main_v0) (hW : W = V m c main_arg2) :
    (dats m 0 c).arrAt 3 cfg0.N = resultArr3 S W :=
  (dats m 0 c).arrAt_eq_of_cover 3 (resultArr3 S W) (fun t hf => flushed3_eq m c S W hS hW t hf) cover3

/-- The first result array, entry by entry. -/
theorem out3_val (m : (ℓ : Loc nD τ sig) → Buf (Elt Ideal) ℓ) (c : Dev nD) (S : FVec Ideal S160x21168 .f32) (W : FVec Ideal S21168x1600 .f32) (o3 : FVec Ideal S160x1536 .f32)
    (hS : S = V m c main_v0) (hW : W = V m c main_arg2) (ho : o3 = (Cert.KernelIdeal.Hand.dats m 0 c).arrAt 3 cfg0.N) (i : Fin 160) (n : Fin 1536) :
    o3 (ValueIdx.ix2 i n) = ∑ k : Fin 15, ∑ j : Fin 1408, S (ValueIdx.ix2 i (kcol k j)) * W (ValueIdx.ix2 (kcol k j) (ncol n)) := by
  rw [ho, final3 m c S W hS hW]
  rfl

/-! ## The second result array -/

/-- Entry (i, n) of the second result: row i of the batch against column n of the weights, over the tiled positions. -/
def entry4 (Q : FVec Ideal S480x21168 .f32) (W : FVec Ideal S21168x1600 .f32) (i : Fin 480) (n : Fin 1536) : Ideal .f32 :=
  ∑ k : Fin 15, ∑ j : Fin 1408, Q (ix2 i (kcol k j)) * W (ix2 (kcol k j) (ncol n))

/-- The whole array of those entries. -/
def resultArr4 (Q : FVec Ideal S480x21168 .f32) (W : FVec Ideal S21168x1600 .f32) : FVec Ideal S480x1536 .f32 :=
  fun idx => entry4 Q W (idx 0) (idx 1)

/-- What a flushing point writes back is its block of that array. -/
theorem flushed4_eq (m : (ℓ : Loc nD τ sig) → Buf (Elt Ideal) ℓ) (c : Dev nD)
    (Q : FVec Ideal S480x21168 .f32) (W : FVec Ideal S21168x1600 .f32) (hQ : Q = V m c main_v1) (hW : W = V m c main_arg2)
    (t : Fin cfg0.N) (hf : (cfg0.win 4).flush t = true) :
    (dats m 0 c).flushed 4 t = ((cfg0.win 4).blk t).view.read (Elt Ideal) (resultArr4 Q W) := by
  have ht : t.val % 15 = 14 := (flush0_4 t).mp hf
  show (cfg0.win 4).cut (grid0.coords t) ((dats m 0 c).after 4 t) = _
  rw [after0_4]
  funext y
  have hy0 : (y 0).val < 480 := (y 0).isLt
  have hy1 : (y 1).val < 768 := (y 1).isLt
  have hin : (cfg0.win 4).xinj (grid0.coords t) y = ix2 (⟨(y 0).val, hy0⟩ : Fin 480) (⟨(y 1).val, hy1⟩ : Fin 768) := by
    funext a
    match a with
    | ⟨0, _⟩ => rfl
    | ⟨1, _⟩ => rfl
  have e0 : (((cfg0.win 4).blk t).view.emb y) 0 = (⟨(y 0).val, hy0⟩ : Fin 480) := Fin.ext (by
    show win0_4.index t (0 : Fin 2) * 480 + 1 * (y 0).val = (y 0).val
    rw [(idx4 t).1]; omega)
  have e1 : (((cfg0.win 4).blk t).view.emb y) 1 = gcol (tg t) (⟨(y 1).val, hy1⟩ : Fin 768) := Fin.ext (by
    show win0_4.index t (1 : Fin 2) * 768 + 1 * (y 1).val = t.val / 15 * 768 + (y 1).val
    rw [(idx4 t).2]; omega)
  show (outsAt0 m c t.val t.isLt).2.1 ((cfg0.win 4).xinj (grid0.coords t) y) = entry4 Q W ((((cfg0.win 4).blk t).view.emb y) 0) ((((cfg0.win 4).blk t).view.emb y) 1)
  rw [hin, e0, e1]
  exact out4_block m c t ht Q W hQ hW _ rfl _ _

/-- An index of the array is in point t's block iff each coordinate is in the block's range on its axis. -/
theorem mem_blk4 (t : Fin cfg0.N) (i : S480x1536.Idx) :
    i ∈ ((cfg0.win 4).blk t).view.set ↔ ∀ a : Fin 2, win0_4.index t a * S480x768.size a ≤ (i a).val ∧ (i a).val < win0_4.index t a * S480x768.size a + S480x768.size a := by
  show i ∈ ((View.whole main_v2_1).slice (win0_4.rect t)).set ↔ _
  rw [View.set_slice_whole, Rect.mem_set_unit]
  exact Iff.rfl

/-- Every entry of the array lies in the block written back at the last contraction tile of its feature tile. -/
theorem cover4 (i : S480x1536.Idx) :
    ∃ t : Fin cfg0.N, (cfg0.win 4).flush t = true ∧ i ∈ ((cfg0.win 4).blk t).view.set := by
  have hN : cfg0.N = 30 := N_0
  have hi0 : (i 0).val < 480 := (i 0).isLt
  have hi1 : (i 1).val < 1536 := (i 1).isLt
  let t : Fin cfg0.N := ⟨(i 1).val / 768 * 15 + 14, by omega⟩
  have htv : t.val = (i 1).val / 768 * 15 + 14 := rfl
  refine ⟨t, (flush0_4 t).mpr (by omega), ?_⟩
  rw [mem_blk4]
  intro a
  match a with
  | ⟨0, _⟩ =>
    show win0_4.index t (0 : Fin 2) * 480 ≤ (i 0).val ∧ (i 0).val < win0_4.index t (0 : Fin 2) * 480 + 480
    rw [(idx4 t).1]; omega
  | ⟨1, _⟩ =>
    show win0_4.index t (1 : Fin 2) * 768 ≤ (i 1).val ∧ (i 1).val < win0_4.index t (1 : Fin 2) * 768 + 768
    rw [(idx4 t).2, htv]; omega

/-- The array after the run. -/
theorem final4 (m : (ℓ : Loc nD τ sig) → Buf (Elt Ideal) ℓ) (c : Dev nD)
    (Q : FVec Ideal S480x21168 .f32) (W : FVec Ideal S21168x1600 .f32) (hQ : Q = V m c main_v1) (hW : W = V m c main_arg2) :
    (dats m 0 c).arrAt 4 cfg0.N = resultArr4 Q W :=
  (dats m 0 c).arrAt_eq_of_cover 4 (resultArr4 Q W) (fun t hf => flushed4_eq m c Q W hQ hW t hf) cover4

/-- The second result array, entry by entry. -/
theorem out4_val (m : (ℓ : Loc nD τ sig) → Buf (Elt Ideal) ℓ) (c : Dev nD) (Q : FVec Ideal S480x21168 .f32) (W : FVec Ideal S21168x1600 .f32) (o4 : FVec Ideal S480x1536 .f32)
    (hQ : Q = V m c main_v1) (hW : W = V m c main_arg2) (ho : o4 = (Cert.KernelIdeal.Hand.dats m 0 c).arrAt 4 cfg0.N) (i : Fin 480) (n : Fin 1536) :
    o4 (ValueIdx.ix2 i n) = ∑ k : Fin 15, ∑ j : Fin 1408, Q (ValueIdx.ix2 i (kcol k j)) * W (ValueIdx.ix2 (kcol k j) (ncol n)) := by
  rw [ho, final4 m c Q W hQ hW]
  rfl

end Cert.Bridge

end
-- ==== Proof.lean ====
/-
  The certificate of a few-shot cosine classifier's encoder kernel against its reference.

  Both programs flatten the support images to S : [160, 21168] and the query images to Q : [480, 21168],
  project them through the weights W : [21168, 1600], average the support features five at a time into
  32 prototypes, divide features and prototypes by their row norms clamped below at 1e-8, take the 480 × 32
  matrix of inner products and apply a row-wise log-softmax.  The reference forms S·W and Q·W by two whole
  products.  The kernel program forms them in pieces: a Pallas kernel on a 2 × 15 grid accumulates, for each
  of two tiles of 768 feature columns, the products over fifteen tiles of 1408 contraction positions
  (15 · 1408 = 21120) into two accumulators it zeroes at the first tile and copies out at the last; host
  operations add the products over the remaining 48 contraction positions, compute the remaining 64 feature
  columns by products of their own over all 21168 positions, and join the columns.  From there on the two
  programs apply the same operations to the same two matrices.

  On the extended reals a finite sum may be split and regrouped freely (addition is associative and
  commutative there, with no finiteness assumption), so entry (i, n) of the joined matrix is
  ∑ over all 21168 positions c of S(i,c)·W(c,n) — the whole product's entry — for the first 1536 columns
  as (∑ over 15 tiles of ∑ over 1408 positions) + ∑ over the last 48 positions, for the last 64 columns
  directly.  Equal features go through the common tail unopened.  The precondition (finite inputs) is
  never used.

  The three frames: each program runs to the end, faults nowhere and leaves its arguments as they were;
  for the kernel programs this is proved once for any float instance and read at the word-level instance
  and at the ideal one.  The idealization rewrote nothing, so the preservation conjunct is trivially true.
-/
import proofs.«173117_j45646912422244_2_alg».proof.Defs
import proofs.«173117_j45646912422244_2_alg».proof.Proof.Gen.Kernel
import proofs.«173117_j45646912422244_2_alg».proof.Proof.Gen.KernelIdeal
import proofs.«173117_j45646912422244_2_alg».proof.Proof.Gen.ReferenceIdeal
import proofs.«173117_j45646912422244_2_alg».proof.Proof.Gen.Pre_finite_inputs
import proofs.«173117_j45646912422244_2_alg».proof.Proof.Frames
import proofs.«173117_j45646912422244_2_alg».proof.Proof.Claims
import proofs.«173117_j45646912422244_2_alg».proof.Proof.KernelRun
import proofs.«173117_j45646912422244_2_alg».proof.Proof.KernelValue
import Idealize.ShloMosaic.Adequacy
import Idealize.ShloMosaic.Init

noncomputable section

namespace Cert.Proof

open Idealize.ShloMosaic Idealize.SL.Sem

/-- The five conjuncts: the two kernel programs' frames, the reference's frame, the (empty) list of rewrites,
    and the equality of results — the kernel program's run ends with the common tail of S·W and Q·W because its
    two result arrays hold the tiled partial products, and the reference's run ends with the same term. -/
theorem claim : Cert.Claim := ⟨Cert.Kernel.Gen.facts, Cert.KernelIdeal.Gen.facts, Cert.ReferenceIdeal.Gen.facts, Cert.Pre_finite_inputs.Gen.facts,
  Cert.Bridge.frame_k, Cert.Bridge.frame_ki, Cert.Bridge.frame_ri, Cert.Bridge.preserves,
  Cert.Bridge.algebraic_of_kernel_runs (fun m g _ =>
    Cert.Bridge.kernel_run m g (fun c => Cert.Bridge.out3_val m c) (fun c => Cert.Bridge.out4_val m c))⟩

end Cert.Proof

end
